-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_t" .f32 0x41649249#32 ((134217728 / 9395241 : ℝ) : EReal)
  ∧ IdealRules.named_const.Statement Cert.KernelIdeal.κ "inv_t" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16384 : Shape := ⟨2, ![512, 16384]⟩
abbrev S1056x16384 : Shape := ⟨2, ![1056, 16384]⟩
abbrev S512 : Shape := ⟨1, ![512]⟩
abbrev S_ : Shape := ⟨0, ![]⟩

class Facts : Prop where
  bcast_S_S512x16384 : S_.BroadcastsInDim S512x16384 (![] : Fin 0 → Fin S512x16384.rank)
  reducesTo_S512x16384_S_d0_1 : S512x16384.ReducesTo [0, 1] S_
  h_S_ : 0 < S_.numel
  bcast_S_S1056x16384 : S_.BroadcastsInDim S1056x16384 (![] : Fin 0 → Fin S1056x16384.rank)
  reducesTo_S1056x16384_S_d0_1 : S1056x16384.ReducesTo [0, 1] S_

variable [Facts]

def fn {F : FTy → Type} [FloatOps F] (main_arg0 : FVec F S512x16384 .f32) (main_arg1 : FVec F S512x16384 .f32) (main_arg2 : FVec F S1056x16384 .f32) (main_arg3 : IVec S512 32) : IVec S_ 1 :=
  let main_v0 : FVec F S512x16384 .f32 := Host.absf main_arg0
  let main_cst : FVec F S_ .f32 := constant S_ .f32 0x7F800000#32
  let main_v1 : FVec F S512x16384 .f32 := broadcastInDim S512x16384 ![] bcast_S_S512x16384 main_cst
  let main_v2 : IVec S512x16384 1 := cmpf .olt main_v0 main_v1
  let main_c : IVec S_ 1 := constantI S_ 1 1#1
  let main_v3 : IVec S_ 1 := (fun x v => Host.reduce IntOp.andi x v reducesTo_S512x16384_S_d0_1 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S1056x16384 .f32 := Host.absf main_arg2
  let main_cst_2 : FVec F S_ .f32 := constant S_ .f32 0x7F800000#32
  let main_v10 : FVec F S1056x16384 .f32 := broadcastInDim S1056x16384 ![] bcast_S_S1056x16384 main_cst_2
  let main_v11 : IVec S1056x16384 1 := cmpf .olt main_v9 main_v10
  let main_c_3 : IVec S_ 1 := constantI S_ 1 1#1
  let main_v12 : IVec S_ 1 := (fun x v => Host.reduce IntOp.andi x v reducesTo_S1056x16384_S_d0_1 h_S_) main_v11 main_c_3
  let main_v13 : IVec S_ 1 := andi main_v8 main_v12
  main_v13
-- ==== Kernel.lean ====
abbrev S512x16384 : Shape := ⟨2, ![512, 16384]⟩
abbrev S1056x16384 : Shape := ⟨2, ![1056, 16384]⟩
abbrev S512 : Shape := ⟨1, ![512]⟩
abbrev S512x1 : Shape := ⟨2, ![512, 1]⟩
abbrev S256x1024 : Shape := ⟨2, ![256, 1024]⟩
abbrev S1056x1024 : Shape := ⟨2, ![1056, 1024]⟩
abbrev S256x1 : Shape := ⟨2, ![256, 1]⟩
abbrev S256x1056 : Shape := ⟨2, ![256, 1056]⟩
abbrev S1056x1 : Shape := ⟨2, ![1056, 1]⟩
abbrev S256 : Shape := ⟨1, ![256]⟩
abbrev S1056 : Shape := ⟨1, ![1056]⟩
abbrev S1x1056 : Shape := ⟨2, ![1, 1056]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S1056x16384, .f32⟩
  | .hbm, ⟨3, _⟩ => ⟨S512, .i32⟩
  | .hbm, ⟨4, _⟩ => ⟨S512x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1056x1024, .f32⟩
  | .local _ .vmem, ⟨5, _⟩ => ⟨S1056x1024, .f32⟩
  | .local _ .vmem, ⟨6, _⟩ => ⟨S256x1, .f32⟩
  | .local _ .vmem, ⟨7, _⟩ => ⟨S256x1, .f32⟩
  | .local _ .vmem, ⟨8, _⟩ => ⟨S256x1056, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S1056x1, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_30 : BitVec 32 := 0#32
  let v48 : BitVec 1 := Scalar.cmpi .ne v47 c0_i32_30
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S256x1056_S256x1056_0_0 : ∀ a, (![0, 0] : Fin 2 → Nat) a + S256x1056.size a ≤ S256x1056.size a
  h_S256x1056 : 0 < S256x1056.numel
  shapeCasts_S256x1056_S256x1056 : S256x1056.ShapeCasts S256x1056
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1056x1_S1056x1_0_0 : ∀ a, (![0, 0] : Fin 2 → Nat) a + S1056x1.size a ≤ S1056x1.size a
  h_S1056x1 : 0 < S1056x1.numel
  shapeCasts_S1056x1_S1056x1 : S1056x1.ShapeCasts S1056x1
  inb_S256x1024_S256x1024_0_0 : ∀ a, (![0, 0] : Fin 2 → Nat) a + S256x1024.size a ≤ S256x1024.size a
  h_S256x1024 : 0 < S256x1024.numel
  inb_S1056x1024_S1056x1024_0_0 : ∀ a, (![0, 0] : Fin 2 → Nat) a + S1056x1024.size a ≤ S1056x1024.size a
  h_S1056x1024 : 0 < S1056x1024.numel
  reduces_S256x1024_S256 : S256x1024.Reduces [1] S256
  shapeCasts_S256_S256x1 : S256.ShapeCasts S256x1
  reduces_S1056x1024_S1056 : S1056x1024.Reduces [1] S1056
  shapeCasts_S1056_S1056x1 : S1056.ShapeCasts S1056x1
  bitsLt_bf16_f32 : FTy.bits .bf16 < FTy.bits .f32
  transposes_S1056x1_p1_0_S1x1056 : S1056x1.Transposes [1, 0] S1x1056
  broadcasts_S256x1_S256x1056 : S256x1.Broadcasts S256x1056
  broadcasts_S1x1056_S256x1056 : S1x1056.Broadcasts S256x1056
  reduces_S256x1056_S256 : S256x1056.Reduces [1] S256
  reducesTo_S512x1_S_d0_1 : S512x1.ReducesTo [0, 1] S_
  h_S_ : 0 < S_.numel
  dot_S256x1024_S1056x1024_S256x1056_1_1_0_0_n_n_wf : DotDims.WF S256x1024 S1056x1024 S256x1056 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x16384.size a
  hwx0_0 : ∀ i : grid0.Coords, EltTy.bits .f32 = 32 ∨ (Rect.block (s := S512x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S512x16384.size a
  hwx0_1 : ∀ i : grid0.Coords, EltTy.bits .f32 = 32 ∨ (Rect.block (s := S512x16384) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1056x1024.size a ≤ S1056x16384.size a
  hwx0_2 : ∀ i : grid0.Coords, EltTy.bits .f32 = 32 ∨ (Rect.block (s := S1056x16384) S1056x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S512x1.size a
  hwx0_3 : ∀ i : grid0.Coords, EltTy.bits .f32 = 32 ∨ (Rect.block (s := S512x1) S256x1.size (cc0_transform_3 i) (hinb0_3 i)).WholeWords (EltTy.packing .f32)

variable [Facts₀]

def dot_S256x1024_S1056x1024_S256x1056_1_1_0_0_n_n : DotDims S256x1024 S1056x1024 S256x1056 where
  lhsContracting := [1]
  rhsContracting := [1]
  lhsNonContracting := [0]
  rhsNonContracting := [0]
  lhsBatch := []
  rhsBatch := []
  wf := dot_S256x1024_S1056x1024_S256x1056_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1056x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S512x16384 : Shape := ⟨2, ![512, 16384]⟩
abbrev S1056x16384 : Shape := ⟨2, ![1056, 16384]⟩
abbrev S512 : Shape := ⟨1, ![512]⟩
abbrev S_ : Shape := ⟨0, ![]⟩
abbrev S512x1 : Shape := ⟨2, ![512, 1]⟩
abbrev S1056 : Shape := ⟨1, ![1056]⟩
abbrev S1056x1 : Shape := ⟨2, ![1056, 1]⟩
abbrev S512x1056 : Shape := ⟨2, ![512, 1056]⟩
abbrev S512x1057 : Shape := ⟨2, ![512, 1057]⟩

abbrev nBuf : Space → Nat
  | .hbm => 65
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S1056x16384, .f32⟩
  | .hbm, ⟨3, _⟩ => ⟨S512, .i32⟩
  | .hbm, ⟨4, _⟩ => ⟨S512x16384, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x16384, .f32⟩
  | .hbm, ⟨13, _⟩ => ⟨S512x16384, .f32⟩
  | .hbm, ⟨14, _⟩ => ⟨S512x16384, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x16384, .f32⟩
  | .hbm, ⟨23, _⟩ => ⟨S512x16384, .f32⟩
  | .hbm, ⟨24, _⟩ => ⟨S1056x16384, .f32⟩
  | .hbm, ⟨25, _⟩ => ⟨S_, .f32⟩
  | .hbm, ⟨26, _⟩ => ⟨S1056, .f32⟩
  | .hbm, ⟨27, _⟩ => ⟨S1056x1, .f32⟩
  | .hbm, ⟨28, _⟩ => ⟨S1056x1, .f32⟩
  | .hbm, ⟨29, _⟩ => ⟨S_, .f32⟩
  | .hbm, ⟨30, _⟩ => ⟨S1056x1, .f32⟩
  | .hbm, ⟨31, _⟩ => ⟨S1056x1, .f32⟩
  | .hbm, ⟨32, _⟩ => ⟨S1056x16384, .f32⟩
  | .hbm, ⟨33, _⟩ => ⟨S1056x16384, .f32⟩
  | .hbm, ⟨34, _⟩ => ⟨S512x16384, .f32⟩
  | .hbm, ⟨35, _⟩ => ⟨S_, .f32⟩
  | .hbm, ⟨36, _⟩ => ⟨S512, .f32⟩
  | .hbm, ⟨37, _⟩ => ⟨S512x1, .f32⟩
  | .hbm, ⟨38, _⟩ => ⟨S512x1056, .f32⟩
  | .hbm, ⟨39, _⟩ => ⟨S512x1057, .f32⟩
  | .hbm, ⟨40, _⟩ => ⟨S_, .f32⟩
  | .hbm, ⟨41, _⟩ => ⟨S512x1057, .f32⟩
  | .hbm, ⟨42, _⟩ => ⟨S512x1057, .f32⟩
  | .hbm, ⟨43, _⟩ => ⟨S_, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512x1, .f32⟩
  | .hbm, ⟨49, _⟩ => ⟨S512x1057, .f32⟩
  | .hbm, ⟨50, _⟩ => ⟨S512x1057, .f32⟩
  | .hbm, ⟨51, _⟩ => ⟨S512x1057, .f32⟩
  | .hbm, ⟨52, _⟩ => ⟨S_, .f32⟩
  | .hbm, ⟨53, _⟩ => ⟨S512, .f32⟩
  | .hbm, ⟨54, _⟩ => ⟨S512x1, .f32⟩
  | .hbm, ⟨55, _⟩ => ⟨S512x1, .f32⟩
  | .hbm, ⟨56, _⟩ => ⟨S512x1057, .f32⟩
  | .hbm, ⟨57, _⟩ => ⟨S512x1057, .f32⟩
  | .hbm, ⟨58, _⟩ => ⟨S512x1, .f32⟩
  | .hbm, ⟨59, _⟩ => ⟨S512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_call0_cst_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]

class Facts₀ : Prop where
  reducesTo_S512x16384_S512_d1 : S512x16384.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  reducesTo_S1056x16384_S1056_d1 : S1056x16384.ReducesTo [1] S1056
  bcast_S1056_S1056x1_0 : S1056.BroadcastsInDim S1056x1 (![0] : Fin 1 → Fin S1056x1.rank)
  bcast_S_S1056x1 : S_.BroadcastsInDim S1056x1 (![] : Fin 0 → Fin S1056x1.rank)
  bcast_S1056x1_S1056x16384_0_1 : S1056x1.BroadcastsInDim S1056x16384 (![0, 1] : Fin 2 → Fin S1056x16384.rank)
  concatenates_S512x1_S512x1056_S512x1057_d1 : Shape.Concatenates [S512x1, S512x1056] S512x1057 1
  bcast_S_S512x1057 : S_.BroadcastsInDim S512x1057 (![] : Fin 0 → Fin S512x1057.rank)
  reducesTo_S512x1057_S512_d1 : S512x1057.ReducesTo [1] S512
  bcast_S_S512 : S_.BroadcastsInDim S512 (![] : Fin 0 → Fin S512.rank)
  bcast_S512x1_S512x1057_0_1 : S512x1.BroadcastsInDim S512x1057 (![0, 1] : Fin 2 → Fin S512x1057.rank)
  slices_S512x1057_S512x1_0_0 : S512x1057.Slices ![0, 0] S512x1
  shapeCasts_S512x1_S512 : S512x1.ShapeCasts S512
  reducesTo_S512_S_d0 : S512.ReducesTo [0] S_
  dot_S512x16384_S1056x16384_S512x1056_1_1_0_0_n_n_wf : DotDims.WF S512x16384 S1056x16384 S512x1056 [1] [1] [0] [0] [] []

variable [Facts₀]

def dot_S512x16384_S1056x16384_S512x1056_1_1_0_0_n_n : DotDims S512x16384 S1056x16384 S512x1056 where
  lhsContracting := [1]
  rhsContracting := [1]
  lhsNonContracting := [0]
  rhsNonContracting := [0]
  lhsBatch := []
  rhsBatch := []
  wf := dot_S512x16384_S1056x16384_S512x1056_1_1_0_0_n_n_wf

class Facts : Prop extends Facts₀ where

variable [Facts]
-- ==== Proof.Spec.lean ====
/-
  The loss both programs compute, as a function of three matrices of extended reals: queries and keys, 512 rows of
  16384 features each, and a queue of 1056 rows.

  A row's norm is the square root of its sum of squares, clamped below by a small constant. A cosine logit is the
  dot product of two rows divided by both norms and by the temperature. The kernel spells it as the finished dot
  product divided by the product of the norms and multiplied by the temperature's reciprocal (`cosK`); the
  reference normalises every entry first, sums the products of normalised entries and divides by the temperature
  (`cosR`). Row `a`'s loss is the log-softmax, at the positive logit, of the positive logit followed by the 1056
  negative ones, each shifted by their maximum; the result is minus the mean over the 512 rows.

  Also here: sixteen tile sums of 1024 consecutive features make one sum over the 16384 features, and an
  accumulator that is reset at every sixteenth step and otherwise gains one tile's contribution holds the sum of the
  contributions of the tiles seen since its last reset.
-/
import Idealize.ShloMosaic.PureOps.Ideal
import Mathlib.Algebra.BigOperators.Fin
import Mathlib.Logic.Equiv.Fin.Basic

noncomputable section

namespace Cert.Moco

open Idealize.ShloMosaic

/-- The clamp under every norm: the binary value of the single-precision constant nearest to 1e-8. -/
def epsV : EReal := Ideal.ofBits .f32 0x322BCC77#32

/-- A row's clamped Euclidean norm. -/
def nrm (x : Fin 16384 → EReal) : EReal := max (Ideal.sqrt (∑ k, x k * x k)) epsV

/-- A cosine logit as the kernel spells it: normalise the finished dot product, multiply by the reciprocal `s`. -/
def cosK (s : EReal) (x y : Fin 16384 → EReal) : EReal := Ideal.div (∑ k, x k * y k) (nrm x * nrm y) * s

/-- A cosine logit as the reference spells it: normalise each entry, sum the products, divide by `t`. -/
def cosR (t : EReal) (x y : Fin 16384 → EReal) : EReal :=
  Ideal.div (∑ k, Ideal.div (x k) (nrm x) * Ideal.div (y k) (nrm y)) t

/-- The shift of a row: the largest of its positive logit and its negative logits. -/
def rowMax (p : EReal) (n : Fin 1056 → EReal) : EReal := max p (Finset.univ.fold max ⊥ n)

/-- Log-softmax at the positive logit of a row of logits. -/
def rowLoss (p : EReal) (n : Fin 1056 → EReal) : EReal :=
  (p - rowMax p n) - Ideal.log (Ideal.exp (p - rowMax p n) + ∑ j, Ideal.exp (n j - rowMax p n))

/-- Minus the mean of the 512 row values (the divisor is the binary value of 512.0). -/
def meanLoss (r : Fin 512 → EReal) : EReal := -(Ideal.div (∑ a, r a) (Ideal.ofBits .f32 0x44000000#32))

/-- The loss over logits spelt by `cosine`. -/
def lossOf (cosine : (Fin 16384 → EReal) → (Fin 16384 → EReal) → EReal)
    (Q K : Fin 512 → Fin 16384 → EReal) (U : Fin 1056 → Fin 16384 → EReal) : EReal :=
  meanLoss fun a => rowLoss (cosine (Q a) (K a)) (fun j => cosine (Q a) (U j))

/-! ## Tiles -/

/-- A function on `Fin n` read at a natural number (zero outside the range). -/
def atNat {n : ℕ} (f : Fin n → EReal) (k : ℕ) : EReal := if h : k < n then f ⟨k, h⟩ else 0

theorem atNat_of_lt {n : ℕ} (f : Fin n → EReal) {k : ℕ} (h : k < n) : atNat f k = f ⟨k, h⟩ := dif_pos h

/-- Sixteen sums over 1024 consecutive features are the sum over all 16384 features. -/
theorem sum_tiles (f : Fin 16384 → EReal) :
    ∑ d ∈ Finset.range 16, ∑ j : Fin 1024, atNat f (1024 * d + j.val) = ∑ k, f k := by
  rw [Finset.sum_range (fun d => ∑ j : Fin 1024, atNat f (1024 * d + j.val))]
  rw [← Fintype.sum_prod_type' (fun (d : Fin 16) (j : Fin 1024) => atNat f (1024 * d.val + j.val))]
  refine Fintype.sum_equiv (finProdFinEquiv (m := 16) (n := 1024)) _ (fun k : Fin (16 * 1024) => f k) (fun x => ?_)
  have h : 1024 * x.1.val + x.2.val < 16384 := by have := x.1.isLt; have := x.2.isLt; omega
  rw [atNat_of_lt f h]
  refine congrArg f (Fin.ext ?_)
  show 1024 * x.1.val + x.2.val = x.2.val + 1024 * x.1.val
  omega

/-- An accumulator over 32 steps that restarts from zero at steps 0 and 16 and gains `g b d` at tile `d` of block
    `b`: after step `n` it holds the contributions of block `n / 16`'s tiles `0 … n % 16`. -/
theorem tile_accum (S : ℕ → EReal) (g : ℕ → ℕ → EReal)
    (h0 : ∀ n, n < 32 → n % 16 = 0 → S n = 0 + g (n / 16) 0)
    (h1 : ∀ n, n + 1 < 32 → (n + 1) % 16 ≠ 0 → S (n + 1) = S n + g ((n + 1) / 16) ((n + 1) % 16)) :
    ∀ n, n < 32 → S n = ∑ d ∈ Finset.range (n % 16 + 1), g (n / 16) d := by
  intro n
  induction n with
  | zero =>
    intro hn
    rw [h0 0 hn rfl, zero_add]
    simp
  | succ n ih =>
    intro hn
    by_cases hz : (n + 1) % 16 = 0
    · rw [h0 (n + 1) hn hz, zero_add, hz]
      simp
    · have e1 : (n + 1) / 16 = n / 16 := by omega
      have e2 : (n + 1) % 16 = n % 16 + 1 := by omega
      rw [h1 n hn hz, ih (by omega), e1, e2, Finset.sum_range_succ (fun d => g (n / 16) d) (n % 16 + 1)]

/-- After the last tile of a block the accumulator holds all sixteen contributions. -/
theorem tile_accum_last (S : ℕ → EReal) (g : ℕ → ℕ → EReal)
    (h0 : ∀ n, n < 32 → n % 16 = 0 → S n = 0 + g (n / 16) 0)
    (h1 : ∀ n, n + 1 < 32 → (n + 1) % 16 ≠ 0 → S (n + 1) = S n + g ((n + 1) / 16) ((n + 1) % 16))
    (n : ℕ) (hn : n < 32) (hl : n % 16 = 15) : S n = ∑ d ∈ Finset.range 16, g (n / 16) d := by
  rw [tile_accum S g h0 h1 n hn, hl]

end Cert.Moco

end
-- ==== Proof.LibMaskWords.lean ====
/-
  Small facts about 0/1 masks and sums, over the extended reals and over literal shapes.
    * a finite sum of products of real numbers, computed in the extended reals, is the real sum;
    * a sum over the indices of a one-axis shape, or of an `[n, 1]` column, is the sum over the coordinate;
    * the one-bit word of an integer equality test selects by the equality, and converted to a float — widened and read
      signed, or read unsigned — it is the 0/1 mask of the equality.
-/
import Idealize.ShloMosaic.PureOps.Ideal
import Idealize.ShloMosaic.Lib.ValueIdx
import Idealize.ShloMosaic.Lib.Affine

noncomputable section

namespace Idealize.ShloMosaic.MaskWords

open Idealize.ShloMosaic Idealize.ShloMosaic.ValueIdx

/-! ## Sums -/

/-- A finite sum of products of reals, computed in the extended reals, is the real sum. -/
theorem sum_coe_mul {κ : Type} [Fintype κ] (a b : κ → ℝ) :
    ∑ k, ((a k : EReal) * (b k : EReal)) = ((∑ k, a k * b k : ℝ) : EReal) := by
  classical
  induction (Finset.univ : Finset κ) using Finset.induction_on with
  | empty => simp
  | insert x s hx ih => rw [Finset.sum_insert hx, Finset.sum_insert hx, ih, EReal.coe_add, EReal.coe_mul]

/-- A sum over the indices of a one-axis shape is the sum over its coordinate. -/
theorem sum_idx1 {M : Type} [AddCommMonoid M] {n : Nat} (f : (⟨1, ![n]⟩ : Shape).Idx → M) :
    ∑ j, f j = ∑ a : Fin n, f (ix1 a) := by
  let e : Fin n ≃ (⟨1, ![n]⟩ : Shape).Idx :=
    { toFun := ix1, invFun := fun j => j 0, left_inv := fun _ => rfl, right_inv := fun j => (eq_ix1 j).symm }
  exact (Equiv.sum_comp e f).symm

/-- A sum over the indices of an `[n, 1]` column is the sum over its rows. -/
theorem sum_idx_col {M : Type} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

/-! ## The word of an integer equality test -/

/-- The word of an integer equality test, used as a selector, selects by the equality. -/
theorem select_cmpi_eq {α : Type} {w : Nat} (x y : BitVec w) (a b : α) :
    Scalar.select (IntOp.cmpi .eq x y) a b = if x = y then a else b := by
  by_cases h : x = y
  · rw [if_pos h, IntOp.cmpi_eq.mpr h]; exact select_one a b
  · rw [if_neg h, eq_zero_of_ne_one (fun e => h (IntOp.cmpi_eq.mp e))]; exact select_zero a b

/-- The word of an integer equality test, widened and read as a signed integer, is the 0/1 mask. -/
theorem sitofp_cmpi_eq {w : Nat} (x y : BitVec w) :
    (((((IntOp.cmpi .eq x y).setWidth 32).toInt : ℤ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

/-- The same word read as an unsigned integer is the same mask. -/
theorem uitofp_cmpi_eq {w : Nat} (x y : BitVec w) :
    ((((IntOp.cmpi .eq x y).toNat : ℕ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

end Idealize.ShloMosaic.MaskWords

end
-- ==== Proof.RefValue.lean ====
/-
  The value of the reference program, read one operation at a time, is the loss of `Cert.Moco` over logits spelt
  the reference's way (`cosR`): every entry of a row is divided by the row's clamped norm, a logit is the sum over
  the 16384 features of the products of normalised entries divided by the temperature, row `a`'s value is the
  log-softmax of its 1057 logits (the positive one first, then the 1056 negative ones) at the positive one, and the
  result is minus the mean of the 512 row values.

  The steps, each a statement about one element at an index given by its coordinates:
    * a row's sum of squares, its clamped norm (an `[n, 1]` column), and its normalised entries, for the queries,
      the keys and the queue;
    * the positive dot product (a sum over the features, as an `[512, 1]` column) and the negative ones (a
      contraction over the features); joined along the columns, column 0 is the positive one and column `s + 1`
      the negative one against queue row `s`; divided by the temperature they are the logits;
    * the row maximum: a running maximum from minus infinity over the 1057 columns, which splits into the positive
      logit and the running maximum of the negative ones; the further maximum with minus infinity changes nothing;
    * the shifted logits, the sum of their exponentials (which splits the same way), its logarithm, and the
      difference, read at column 0;
    * the sum over the 512 rows, divided by 512 and negated.
  Every step is an identity of extended reals: operations are unfolded, sums and maxima are re-indexed, and the
  initial values 0 of a sum and minus infinity of a maximum are dropped. No finiteness is needed.
-/
import proofs.«149832_j18373870092471_2_alg».proof.Proof.RefRead
import proofs.«149832_j18373870092471_2_alg».proof.Proof.Spec
import proofs.«149832_j18373870092471_2_alg».proof.Proof.LibMaskWords
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx Cert.Moco

/-- Row `a` of a matrix with 16384 columns, as a function of the feature. -/
def rowOf {R : ℕ} (X : (⟨2, ![R, 16384]⟩ : Shape).Idx → EReal) (a : Fin R) : Fin 16384 → EReal := fun k => X (Idealize.ShloMosaic.ValueIdx.ix2 a k)

/-! ## Norms and normalised rows -/

/-- The sum of squares of row `a` of the queries. -/
theorem sumsq_x0 (x0 : (⟨S512x16384, .f32⟩ : BufTy).Contents (Elt Ideal)) (a : Fin 512) :
    val_main_v1 (F := Ideal) x0 (ix1 a) = ∑ k, rowOf x0 a k * rowOf x0 a k := by
  rw [val_main_v1_apply, val_main_cst_apply, Ideal.ofBits_def, Ideal.ofBits_zero_f32, zero_add]
  refine Finset.sum_congr rfl fun k _ => ?_
  rw [val_main_v0_apply, Ideal.mulf_def]
  have e : idx_main_v1 (ix1 a) k = ix2 a k := funext fun d => Fin.ext (by match d with | ⟨0, _⟩ => rfl | ⟨1, _⟩ => rfl)
  rw [e]
  rfl

/-- The clamped norm of row `a` of the queries. -/
theorem norm_x0 (x0 : (⟨S512x16384, .f32⟩ : BufTy).Contents (Elt Ideal)) (a : Fin 512) :
    val_main_v5 (F := Ideal) x0 (ix2 a (0 : Fin 1)) = nrm (rowOf x0 a) := by
  rw [val_main_v5_apply, val_main_v3_apply, val_main_v2_apply, val_main_v4_apply, val_main_cst_0_apply,
    Ideal.maximumf_def, Ideal.hostUnary_sqrt_def, Ideal.ofBits_def]
  have e : idx_main_v2 (ix2 a (0 : Fin 1)) = ix1 a := funext fun d => Fin.ext (by match d with | ⟨0, _⟩ => rfl)
  rw [e, sumsq_x0]
  rfl

/-- Entry `k` of row `a` of the queries, divided by the row's clamped norm. -/
theorem unit_x0 (x0 : (⟨S512x16384, .f32⟩ : BufTy).Contents (Elt Ideal)) (a : Fin 512) (k : Fin 16384) :
    val_main_v7 (F := Ideal) x0 (ix2 a k) = Ideal.div (rowOf x0 a k) (nrm (rowOf x0 a)) := by
  rw [val_main_v7_apply, val_main_v6_apply, Ideal.hostDivf_def]
  have e : idx_main_v6 (ix2 a k) = ix2 a (0 : Fin 1) := funext fun d => Fin.ext (by match d with | ⟨0, _⟩ => rfl | ⟨1, _⟩ => rfl)
  rw [e, norm_x0]
  rfl

/-- The sum of squares of row `a` of the keys. -/
theorem sumsq_x1 (x1 : (⟨S512x16384, .f32⟩ : BufTy).Contents (Elt Ideal)) (a : Fin 512) :
    val_main_v9 (F := Ideal) x1 (ix1 a) = ∑ k, rowOf x1 a k * rowOf x1 a k := by
  rw [val_main_v9_apply, val_main_cst_1_apply, Ideal.ofBits_def, Ideal.ofBits_zero_f32, zero_add]
  refine Finset.sum_congr rfl fun k _ => ?_
  rw [val_main_v8_apply, Ideal.mulf_def]
  have e : idx_main_v9 (ix1 a) k = ix2 a k := funext fun d => Fin.ext (by match d with | ⟨0, _⟩ => rfl | ⟨1, _⟩ => rfl)
  rw [e]
  rfl

/-- The clamped norm of row `a` of the keys. -/
theorem norm_x1 (x1 : (⟨S512x16384, .f32⟩ : BufTy).Contents (Elt Ideal)) (a : Fin 512) :
    val_main_v13 (F := Ideal) x1 (ix2 a (0 : Fin 1)) = nrm (rowOf x1 a) := by
  rw [val_main_v13_apply, val_main_v11_apply, val_main_v10_apply, val_main_v12_apply, val_main_cst_2_apply,
    Ideal.maximumf_def, Ideal.hostUnary_sqrt_def, Ideal.ofBits_def]
  have e : idx_main_v10 (ix2 a (0 : Fin 1)) = ix1 a := funext fun d => Fin.ext (by match d with | ⟨0, _⟩ => rfl)
  rw [e, sumsq_x1]
  rfl

/-- Entry `k` of row `a` of the keys, divided by the row's clamped norm. -/
theorem unit_x1 (x1 : (⟨S512x16384, .f32⟩ : BufTy).Contents (Elt Ideal)) (a : Fin 512) (k : Fin 16384) :
    val_main_v15 (F := Ideal) x1 (ix2 a k) = Ideal.div (rowOf x1 a k) (nrm (rowOf x1 a)) := by
  rw [val_main_v15_apply, val_main_v14_apply, Ideal.hostDivf_def]
  have e : idx_main_v14 (ix2 a k) = ix2 a (0 : Fin 1) := funext fun d => Fin.ext (by match d with | ⟨0, _⟩ => rfl | ⟨1, _⟩ => rfl)
  rw [e, norm_x1]
  rfl

/-- The sum of squares of row `a` of the queue. -/
theorem sumsq_x2 (x2 : (⟨S1056x16384, .f32⟩ : BufTy).Contents (Elt Ideal)) (a : Fin 1056) :
    val_main_v17 (F := Ideal) x2 (ix1 a) = ∑ k, rowOf x2 a k * rowOf x2 a k := by
  rw [val_main_v17_apply, val_main_cst_3_apply, Ideal.ofBits_def, Ideal.ofBits_zero_f32, zero_add]
  refine Finset.sum_congr rfl fun k _ => ?_
  rw [val_main_v16_apply, Ideal.mulf_def]
  have e : idx_main_v17 (ix1 a) k = ix2 a k := funext fun d => Fin.ext (by match d with | ⟨0, _⟩ => rfl | ⟨1, _⟩ => rfl)
  rw [e]
  rfl

/-- The clamped norm of row `a` of the queue. -/
theorem norm_x2 (x2 : (⟨S1056x16384, .f32⟩ : BufTy).Contents (Elt Ideal)) (a : Fin 1056) :
    val_main_v21 (F := Ideal) x2 (ix2 a (0 : Fin 1)) = nrm (rowOf x2 a) := by
  rw [val_main_v21_apply, val_main_v19_apply, val_main_v18_apply, val_main_v20_apply, val_main_cst_4_apply,
    Ideal.maximumf_def, Ideal.hostUnary_sqrt_def, Ideal.ofBits_def]
  have e : idx_main_v18 (ix2 a (0 : Fin 1)) = ix1 a := funext fun d => Fin.ext (by match d with | ⟨0, _⟩ => rfl)
  rw [e, sumsq_x2]
  rfl

/-- Entry `k` of row `a` of the queue, divided by the row's clamped norm. -/
theorem unit_x2 (x2 : (⟨S1056x16384, .f32⟩ : BufTy).Contents (Elt Ideal)) (a : Fin 1056) (k : Fin 16384) :
    val_main_v23 (F := Ideal) x2 (ix2 a k) = Ideal.div (rowOf x2 a k) (nrm (rowOf x2 a)) := by
  rw [val_main_v23_apply, val_main_v22_apply, Ideal.hostDivf_def]
  have e : idx_main_v22 (ix2 a k) = ix2 a (0 : Fin 1) := funext fun d => Fin.ext (by match d with | ⟨0, _⟩ => rfl | ⟨1, _⟩ => rfl)
  rw [e, norm_x2]
  rfl

/-! ## The logits -/

/-- The temperature: the binary value of the single-precision constant nearest to 0.07. -/
abbrev tempV : EReal := Ideal.ofBits .f32 0x3D8F5C29#32

/-- The positive dot product of row `a`: the sum over the features of the products of normalised entries. -/
theorem lpos (x0 x1 : (⟨S512x16384, .f32⟩ : BufTy).Contents (Elt Ideal)) (a : Fin 512) :
    val_main_v26 (F := Ideal) x0 x1 (ix2 a (0 : Fin 1))
      = ∑ k, Ideal.div (rowOf x0 a k) (nrm (rowOf x0 a)) * Ideal.div (rowOf x1 a k) (nrm (rowOf x1 a)) := by
  rw [val_main_v26_apply]
  have e : idx_main_v26 (ix2 a (0 : Fin 1)) = ix1 a := funext fun d => Fin.ext (by match d with | ⟨0, _⟩ => rfl)
  rw [e, val_main_v25_apply, val_main_cst_5_apply, Ideal.ofBits_def, Ideal.ofBits_zero_f32, zero_add]
  refine Finset.sum_congr rfl fun k _ => ?_
  have e2 : idx_main_v25 (ix1 a) k = ix2 a k := funext fun d => Fin.ext (by match d with | ⟨0, _⟩ => rfl | ⟨1, _⟩ => rfl)
  rw [e2, val_main_v24_apply, Ideal.mulf_def, unit_x0, unit_x1]

/-- The negative dot product of query row `a` and queue row `s`. -/
theorem lneg (x0 : (⟨S512x16384, .f32⟩ : BufTy).Contents (Elt Ideal)) (x2 : (⟨S1056x16384, .f32⟩ : BufTy).Contents (Elt Ideal))
    (a : Fin 512) (s : Fin 1056) :
    val_main_v27 (F := Ideal) x0 x2 (ix2 a s)
      = ∑ k, Ideal.div (rowOf x0 a k) (nrm (rowOf x0 a)) * Ideal.div (rowOf x2 s k) (nrm (rowOf x2 s)) := by
  rw [val_main_v27_apply]
  refine Finset.sum_congr rfl fun k _ => ?_
  have el : lidx_main_v27 (ix2 a s) k = ix2 a k := funext fun d => Fin.ext (by match d with | ⟨0, _⟩ => rfl | ⟨1, _⟩ => rfl)
  have er : ridx_main_v27 (ix2 a s) k = ix2 s k := funext fun d => Fin.ext (by match d with | ⟨0, _⟩ => rfl | ⟨1, _⟩ => rfl)
  rw [el, er, unit_x0, unit_x2]

/-- Column 0 of the joined array is the positive dot product. -/
theorem cat_zero (x0 x1 : (⟨S512x16384, .f32⟩ : BufTy).Contents (Elt Ideal)) (x2 : (⟨S1056x16384, .f32⟩ : BufTy).Contents (Elt Ideal))
    (a : Fin 512) :
    val_main_v28 (F := Ideal) x0 x1 x2 (ix2 a (0 : Fin 1057)) = val_main_v26 (F := Ideal) x0 x1 (ix2 a (0 : Fin 1)) := by
  unfold val_main_v28
  exact concatenate_pair_apply_left 1 _ _ concatenates_S512x1_S512x1056_S512x1057_d1 (ix2 a (0 : Fin 1057)) rfl (ix2 a (0 : Fin 1))
    (fun b => by match b with | ⟨0, _⟩ => rfl | ⟨1, _⟩ => rfl)

/-- Column `s + 1` of the joined array is the negative dot product with queue row `s`. -/
theorem cat_succ (x0 x1 : (⟨S512x16384, .f32⟩ : BufTy).Contents (Elt Ideal)) (x2 : (⟨S1056x16384, .f32⟩ : BufTy).Contents (Elt Ideal))
    (a : Fin 512) (s : Fin 1056) :
    val_main_v28 (F := Ideal) x0 x1 x2 (ix2 a (s.succ : Fin 1057)) = val_main_v27 (F := Ideal) x0 x2 (ix2 a s) := by
  unfold val_main_v28
  exact concatenate_pair_apply_right 1 _ _ concatenates_S512x1_S512x1056_S512x1057_d1 (ix2 a (s.succ : Fin 1057)) rfl rfl (ix2 a s)
    (fun b hb => by match b with | ⟨0, _⟩ => rfl | ⟨1, _⟩ => exact absurd rfl hb)
    (Fin.val_succ s).symm

/-- The logit at column `j` is the joined array's entry divided by the temperature. -/
theorem logit_apply (x0 x1 : (⟨S512x16384, .f32⟩ : BufTy).Contents (Elt Ideal)) (x2 : (⟨S1056x16384, .f32⟩ : BufTy).Contents (Elt Ideal))
    (a : Fin 512) (j : Fin 1057) :
    val_main_v30 (F := Ideal) x0 x1 x2 (ix2 a j) = Ideal.div (val_main_v28 (F := Ideal) x0 x1 x2 (ix2 a j)) tempV := by
  rw [val_main_v30_apply, val_main_v29_apply, val_main_cst_6_apply, Ideal.hostDivf_def, Ideal.ofBits_def]

/-- The positive logit of row `a`. -/
theorem logit_zero (x0 x1 : (⟨S512x16384, .f32⟩ : BufTy).Contents (Elt Ideal)) (x2 : (⟨S1056x16384, .f32⟩ : BufTy).Contents (Elt Ideal))
    (a : Fin 512) :
    val_main_v30 (F := Ideal) x0 x1 x2 (ix2 a (0 : Fin 1057)) = cosR tempV (rowOf x0 a) (rowOf x1 a) := by
  rw [logit_apply, cat_zero, lpos]
  rfl

/-- The negative logit of row `a` against queue row `s`. -/
theorem logit_succ (x0 x1 : (⟨S512x16384, .f32⟩ : BufTy).Contents (Elt Ideal)) (x2 : (⟨S1056x16384, .f32⟩ : BufTy).Contents (Elt Ideal))
    (a : Fin 512) (s : Fin 1056) :
    val_main_v30 (F := Ideal) x0 x1 x2 (ix2 a (s.succ : Fin 1057)) = cosR tempV (rowOf x0 a) (rowOf x2 s) := by
  rw [logit_apply, cat_succ, lneg]
  rfl

/-! ## The row maximum -/

/-- The pattern of minus infinity denotes the bottom of the extended reals. -/
theorem ofBits_neg_inf : Ideal.ofBits .f32 0xFF800000#32 = ⊥ := by simp [Ideal.ofBits, Ideal.ieee]

/-- A running maximum from `⊥` over `n + 1` values splits off the value at 0. -/
theorem fold_max_succ {n : ℕ} (f : Fin (n + 1) → EReal) :
    (Finset.univ : Finset (Fin (n + 1))).fold max ⊥ f
      = max (f 0) ((Finset.univ : Finset (Fin n)).fold max ⊥ fun j => f j.succ) := by
  rw [Fin.univ_succ, Finset.fold_cons, Finset.fold_map]
  rfl

/-- The maximum-reduction of row `a` of the logits is the running maximum from `⊥` over its 1057 columns. -/
theorem rowmax_fold (x0 x1 : (⟨S512x16384, .f32⟩ : BufTy).Contents (Elt Ideal)) (x2 : (⟨S1056x16384, .f32⟩ : BufTy).Contents (Elt Ideal)) (a : Fin 512) :
    val_main_call0_v0 (F := Ideal) x0 x1 x2 (ix1 a)
      = (Finset.univ : Finset (Fin 1057)).fold max ⊥ fun j => val_main_v30 (F := Ideal) x0 x1 x2 (ix2 a j) := by
  unfold val_main_call0_v0
  have h : S512x1057.Reduces [1] S512 := by decide
  rw [Host.reduce_eq_fold_single FloatOps.maximumf _ _ reducesTo_S512x1057_S512_d1 h h_S_]
  have hf : (val_main_v30 (F := Ideal) x0 x1 x2 ∘ h.lift (ix1 a))
      = fun j : Fin 1057 => val_main_v30 (F := Ideal) x0 x1 x2 (ix2 a j) :=
    funext fun k => congrArg (val_main_v30 (F := Ideal) x0 x1 x2) (funext fun c => Fin.ext (by fin_cases c <;> rfl))
  have hb : val_main_call0_cst (F := Ideal) (Shape.Idx.first h_S_) = ⊥ := by
    rw [val_main_call0_cst_apply, Ideal.ofBits_def, ofBits_neg_inf]
  rw [hb]
  exact congrArg (fun f => Finset.fold max ⊥ f (Finset.univ : Finset (Fin 1057))) hf

/-- The shift of row `a`: the largest of its positive logit and its 1056 negative logits. -/
theorem rowmax (x0 x1 : (⟨S512x16384, .f32⟩ : BufTy).Contents (Elt Ideal)) (x2 : (⟨S1056x16384, .f32⟩ : BufTy).Contents (Elt Ideal)) (a : Fin 512) :
    val_main_call0_v2 (F := Ideal) x0 x1 x2 (ix1 a)
      = rowMax (cosR tempV (rowOf x0 a) (rowOf x1 a)) (fun s => cosR tempV (rowOf x0 a) (rowOf x2 s)) := by
  rw [val_main_call0_v2_apply, val_main_call0_v1_apply, val_main_call0_cst_0_apply, Ideal.maximumf_def, Ideal.ofBits_def,
    ofBits_neg_inf, max_eq_right bot_le, rowmax_fold]
  refine (fold_max_succ (n := 1056) (fun j : Fin 1057 => val_main_v30 (F := Ideal) x0 x1 x2 (ix2 a j))).trans ?_
  show max (val_main_v30 (F := Ideal) x0 x1 x2 (ix2 a (0 : Fin 1057)))
      ((Finset.univ : Finset (Fin 1056)).fold max ⊥ fun s => val_main_v30 (F := Ideal) x0 x1 x2 (ix2 a (s.succ : Fin 1057))) = _
  have hn : (fun s : Fin 1056 => val_main_v30 (F := Ideal) x0 x1 x2 (ix2 a (s.succ : Fin 1057)))
      = fun s => cosR tempV (rowOf x0 a) (rowOf x2 s) := funext fun s => logit_succ x0 x1 x2 a s
  rw [logit_zero, hn]
  rfl

/-! ## Log-softmax at the positive logit -/

/-- A logit of row `a` less the row's shift. -/
theorem shifted (x0 x1 : (⟨S512x16384, .f32⟩ : BufTy).Contents (Elt Ideal)) (x2 : (⟨S1056x16384, .f32⟩ : BufTy).Contents (Elt Ideal)) (a : Fin 512) (j : Fin 1057) :
    val_main_call0_v5 (F := Ideal) x0 x1 x2 (ix2 a j)
      = val_main_v30 (F := Ideal) x0 x1 x2 (ix2 a j) - val_main_call0_v2 (F := Ideal) x0 x1 x2 (ix1 a) := by
  rw [val_main_call0_v5_apply, val_main_call0_v4_apply, val_main_call0_v3_apply, Ideal.subf_def]
  have e : idx_main_call0_v3 (idx_main_call0_v4 (ix2 a j)) = ix1 a := funext fun d => Fin.ext (by match d with | ⟨0, _⟩ => rfl)
  rw [e]

/-- The sum over row `a` of the exponentials of the shifted logits. -/
theorem sumexp (x0 x1 : (⟨S512x16384, .f32⟩ : BufTy).Contents (Elt Ideal)) (x2 : (⟨S1056x16384, .f32⟩ : BufTy).Contents (Elt Ideal)) (a : Fin 512) :
    val_main_call0_v7 (F := Ideal) x0 x1 x2 (ix1 a)
      = ∑ j : Fin 1057, Ideal.exp (val_main_v30 (F := Ideal) x0 x1 x2 (ix2 a j) - val_main_call0_v2 (F := Ideal) x0 x1 x2 (ix1 a)) := by
  rw [val_main_call0_v7_apply, val_main_call0_cst_1_apply, Ideal.ofBits_def, Ideal.ofBits_zero_f32, zero_add]
  refine Finset.sum_congr rfl fun j _ => ?_
  have e : idx_main_call0_v7 (ix1 a) j = ix2 a j := funext fun d => Fin.ext (by match d with | ⟨0, _⟩ => rfl | ⟨1, _⟩ => rfl)
  rw [e, val_main_call0_v6_apply, Ideal.hostUnary_exp_def, shifted]

/-- Log-softmax of row `a` at column `j`: the shifted logit less the logarithm of the row's sum of exponentials. -/
theorem logsoftmax (x0 x1 : (⟨S512x16384, .f32⟩ : BufTy).Contents (Elt Ideal)) (x2 : (⟨S1056x16384, .f32⟩ : BufTy).Contents (Elt Ideal)) (a : Fin 512) (j : Fin 1057) :
    val_main_v31 (F := Ideal) x0 x1 x2 (ix2 a j)
      = (val_main_v30 (F := Ideal) x0 x1 x2 (ix2 a j) - val_main_call0_v2 (F := Ideal) x0 x1 x2 (ix1 a))
        - Ideal.log (∑ j' : Fin 1057, Ideal.exp (val_main_v30 (F := Ideal) x0 x1 x2 (ix2 a j') - val_main_call0_v2 (F := Ideal) x0 x1 x2 (ix1 a))) := by
  rw [val_main_v31_apply, Ideal.subf_def, shifted, val_main_call0_v10_apply, val_main_call0_v9_apply, Ideal.hostUnary_log_def,
    val_main_call0_v8_apply]
  have e : idx_main_call0_v8 (idx_main_call0_v10 (ix2 a j)) = ix1 a := funext fun d => Fin.ext (by match d with | ⟨0, _⟩ => rfl)
  rw [e, sumexp]

/-- Row `a`'s value: the log-softmax of its logits at the positive one. -/
theorem row_loss (x0 x1 : (⟨S512x16384, .f32⟩ : BufTy).Contents (Elt Ideal)) (x2 : (⟨S1056x16384, .f32⟩ : BufTy).Contents (Elt Ideal)) (a : Fin 512) :
    val_main_v33 (F := Ideal) x0 x1 x2 (ix1 a)
      = rowLoss (cosR tempV (rowOf x0 a) (rowOf x1 a)) (fun s => cosR tempV (rowOf x0 a) (rowOf x2 s)) := by
  rw [val_main_v33_apply, val_main_v32_apply]
  have e : idx_main_v32 (idx_main_v33 (ix1 a)) = ix2 a (0 : Fin 1057) :=
    funext fun d => Fin.ext (by match d with | ⟨0, _⟩ => exact Nat.div_one _ | ⟨1, _⟩ => rfl)
  rw [e, logsoftmax, rowmax]
  have hs : ∑ j : Fin 1057, Ideal.exp (val_main_v30 (F := Ideal) x0 x1 x2 (ix2 a j)
        - rowMax (cosR tempV (rowOf x0 a) (rowOf x1 a)) (fun s => cosR tempV (rowOf x0 a) (rowOf x2 s)))
      = Ideal.exp (cosR tempV (rowOf x0 a) (rowOf x1 a) - rowMax (cosR tempV (rowOf x0 a) (rowOf x1 a)) (fun s => cosR tempV (rowOf x0 a) (rowOf x2 s)))
        + ∑ s : Fin 1056, Ideal.exp (cosR tempV (rowOf x0 a) (rowOf x2 s)
            - rowMax (cosR tempV (rowOf x0 a) (rowOf x1 a)) (fun s => cosR tempV (rowOf x0 a) (rowOf x2 s))) := by
    refine (Fin.sum_univ_succ (n := 1056) _).trans ?_
    show Ideal.exp (val_main_v30 (F := Ideal) x0 x1 x2 (ix2 a (0 : Fin 1057)) - _)
      + ∑ s : Fin 1056, Ideal.exp (val_main_v30 (F := Ideal) x0 x1 x2 (ix2 a (s.succ : Fin 1057)) - _) = _
    rw [logit_zero]
    refine congrArg (_ + ·) (Finset.sum_congr rfl fun s _ => ?_)
    rw [logit_succ]
  rw [hs, logit_zero]
  rfl

/-! ## The loss -/

theorem result_eq (x0 x1 : (⟨S512x16384, .f32⟩ : BufTy).Contents (Elt Ideal)) (x2 : (⟨S1056x16384, .f32⟩ : BufTy).Contents (Elt Ideal)) (i : S_.Idx) :
      Cert.ReferenceIdeal.ReadP.val_main_v36 (F := Ideal) x0 x1 x2 i
        = Cert.Moco.lossOf (Cert.Moco.cosR (Ideal.ofBits .f32 0x3D8F5C29#32)) (fun a => rowOf x0 a) (fun a => rowOf x1 a) (fun s => rowOf x2 s) := by
  rw [val_main_v36_apply, val_main_v35_apply, val_main_cst_8_apply, val_main_v34_apply, val_main_cst_7_apply,
    Ideal.hostNegf_def, Ideal.negf_def, Ideal.hostDivf_def, Ideal.ofBits_def, Ideal.ofBits_def, Ideal.ofBits_zero_f32, zero_add,
    MaskWords.sum_idx1]
  have hr : (fun a : Fin 512 => val_main_v33 (F := Ideal) x0 x1 x2 (ix1 a))
      = fun a => rowLoss (cosR tempV (rowOf x0 a) (rowOf x1 a)) (fun s => cosR tempV (rowOf x0 a) (rowOf x2 s)) :=
    funext fun a => row_loss x0 x1 x2 a
  rw [hr]
  rfl

end Cert.ReferenceIdeal.RefValue

end
-- ==== Proof.Pieces.lean ====
/-
  What one run of the kernel body leaves behind, case by case. The body keeps five accumulators across the sixteen
  feature tiles of a row block: the query-by-queue products, the squared norms of the query rows, of the key rows
  and of the queue rows, and the query-by-key row products. On the first tile each is zeroed and then gains the
  tile's contribution; on a middle tile it gains the tile's contribution; on the last tile it gains the
  contribution and the output block receives the rows' log-softmax computed from the five finished accumulators.
  Each lemma reads one accumulator (or the output block) after the body as the body's own arithmetic of the
  tile's three input blocks and of the accumulators before it.
-/
import proofs.«149832_j18373870092471_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]
variable (c : Dev nD) (i : grid0.Coords)
  (arg2 : Memref sig .tc .vmem S256x1024 .f32) (harg2 : arg2.IsWhole) (arg3 : Memref sig .tc .vmem S256x1024 .f32) (harg3 : arg3.IsWhole)
  (arg4 : Memref sig .tc .vmem S1056x1024 .f32) (harg4 : arg4.IsWhole) (arg5 : Memref sig .tc .vmem S256x1 .f32) (harg5 : arg5.IsWhole)
  (arg6 : Memref sig .tc .vmem S256x1056 .f32) (harg6 : arg6.IsWhole) (arg7 : Memref sig .tc .vmem S256x1 .f32) (harg7 : arg7.IsWhole)
  (arg8 : Memref sig .tc .vmem S256x1 .f32) (harg8 : arg8.IsWhole) (arg9 : Memref sig .tc .vmem S256x1 .f32) (harg9 : arg9.IsWhole)
  (arg10 : Memref sig .tc .vmem S1056x1 .f32) (harg10 : arg10.IsWhole)
  (x0 : Vec F S256x1024 .f32) (x1 : Vec F S256x1024 .f32) (x2 : Vec F S1056x1024 .f32)
  (xs0 : Vec F S256x1056 .f32) (xs1 : Vec F S256x1 .f32) (xs2 : Vec F S256x1 .f32) (xs3 : Vec F S256x1 .f32) (xs4 : Vec F S1056x1 .f32)

/-- The whole-block rectangle's offsets are all zero. -/
theorem hz : (![0, 0] : Fin 2 → Nat) = fun _ => 0 := funext fun a => by fin_cases a <;> rfl

/-! ## A middle tile: each accumulator gains its tile's contribution -/

/-- The query-by-queue products: the block so far plus this tile's matrix product. -/
theorem mid_neg (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 xs0 xs1 xs2 xs3 xs4 = k0_pay2 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  first | rw [View.canon_unit_zero (S := S256x1056) hz] | rw [View.canon_cons_unit_zero (S := S256x1056) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The query rows' squared norms: the column so far plus this tile's row sums of squares. -/
theorem mid_sqq (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 xs0 xs1 xs2 xs3 xs4 = k0_pay10 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The key rows' squared norms, likewise. -/
theorem mid_sqk (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 xs0 xs1 xs2 xs3 xs4 = k0_pay11 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The query-by-key row products, likewise. -/
theorem mid_pos (hc0 : ¬cond0_0 i) (hc1 : ¬cond0_1 i) :
    sout0_B_3 c i arg2 harg2 arg3 harg3 arg4 harg4 arg5 harg5 arg6 harg6 arg7 harg7 arg8 harg8 arg9 harg9 arg10 harg10 hc0 hc1 x0 x1 x2 xs0 xs1 xs2 xs3 xs4 = k0_pay12 x0 x1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The queue rows' squared norms, likewise. -/
theorem mid_squ (hc0 : ¬cond0_0 i) (hc1 : ¬cond0_1 i) :
    sout0_B_4 c i arg2 harg2 arg3 harg3 arg4 harg4 arg5 harg5 arg6 harg6 arg7 harg7 arg8 harg8 arg9 harg9 arg10 harg10 hc0 hc1 x0 x1 x2 xs0 xs1 xs2 xs3 xs4 = k0_pay1 x2 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  first | rw [View.canon_unit_zero (S := S1056x1) hz] | rw [View.canon_cons_unit_zero (S := S1056x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-! ## The last tile: the same five updates, and the rows' log-softmax of the finished accumulators -/

/-- The query-by-queue products after the last tile. -/
theorem last_neg (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 xs0 xs1 xs2 xs3 xs4 = k0_pay2 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  first | rw [View.canon_unit_zero (S := S256x1056) hz] | rw [View.canon_cons_unit_zero (S := S256x1056) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The query rows' squared norms after the last tile. -/
theorem last_sqq (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 xs0 xs1 xs2 xs3 xs4 = k0_pay10 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The key rows' squared norms after the last tile. -/
theorem last_sqk (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 xs0 xs1 xs2 xs3 xs4 = k0_pay11 x1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The query-by-key row products after the last tile. -/
theorem last_pos (hc0 : ¬cond0_0 i) (hc1 : cond0_1 i) :
    sout0_C_3 c i arg2 harg2 arg3 harg3 arg4 harg4 arg5 harg5 arg6 harg6 arg7 harg7 arg8 harg8 arg9 harg9 arg10 harg10 hc0 hc1 x0 x1 x2 xs0 xs1 xs2 xs3 xs4 = k0_pay12 x0 x1 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The queue rows' squared norms after the last tile. -/
theorem last_squ (hc0 : ¬cond0_0 i) (hc1 : cond0_1 i) :
    sout0_C_4 c i arg2 harg2 arg3 harg3 arg4 harg4 arg5 harg5 arg6 harg6 arg7 harg7 arg8 harg8 arg9 harg9 arg10 harg10 hc0 hc1 x0 x1 x2 xs0 xs1 xs2 xs3 xs4 = k0_pay1 x2 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  first | rw [View.canon_unit_zero (S := S1056x1) hz] | rw [View.canon_cons_unit_zero (S := S1056x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The output block at the last tile: the epilogue applied to the five accumulators as this same point has just left them. -/
theorem last_out (hc0 : ¬cond0_0 i) (hc1 : cond0_1 i) :
    out0_C_3 c i arg2 harg2 arg3 harg3 arg4 harg4 arg5 harg5 arg6 harg6 arg7 harg7 arg8 harg8 arg9 harg9 arg10 harg10 hc0 hc1 x0 x1 x2 xs0 xs1 xs2 xs3 xs4 = k0_pay3 (k0_pay10 x0 xs1) (k0_pay11 x1 xs2) (k0_pay1 x2 xs4) (k0_pay12 x0 x1 xs3) (k0_pay2 x0 x2 xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-! ## The first tile: every accumulator is zeroed, then gains the tile's contribution -/

/-- The query-by-queue products: the zero block plus the first tile's matrix product. -/
theorem first_neg (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 = k0_pay2 x0 x2 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  try sl_unfold_words
  first | rw [View.canon_unit_zero (S := S256x1056) hz] | rw [View.canon_cons_unit_zero (S := S256x1056) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The query rows' squared norms: the zero column plus the first tile's row sums. -/
theorem first_sqq (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 = k0_pay10 x0 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The key rows' squared norms, likewise. -/
theorem first_sqk (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 = k0_pay11 x1 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The query-by-key row products, likewise. -/
theorem first_pos (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 = k0_pay12 x0 x1 k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  try sl_unfold_words
  first | rw [View.canon_unit_zero (S := S256x1) hz] | rw [View.canon_cons_unit_zero (S := S256x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

/-- The queue rows' squared norms, likewise. -/
theorem first_squ (hc0 : cond0_0 i) (hc1 : ¬cond0_1 i) :
    sout0_A_4 c i arg2 harg2 arg3 harg3 arg4 harg4 arg5 harg5 arg6 harg6 arg7 harg7 arg8 harg8 arg9 harg9 arg10 harg10 hc0 hc1 x0 x1 x2 = k0_pay1 x2 k0_pay8 := by
  unfold sout0_A_4
  rw [View.read_writes_eq_canon _ _ _ (scover0_A_4 c i arg2 harg2 arg3 harg3 arg4 harg4 arg5 harg5 arg6 harg6 arg7 harg7 arg8 harg8 arg9 harg9 arg10 harg10 hc0 hc1 x0 x1 x2)]
  unfold kernelRun0_A
  dsimp only
  try sl_unfold_words
  first | rw [View.canon_unit_zero (S := S1056x1) hz] | rw [View.canon_cons_unit_zero (S := S1056x1) hz]
  simp only [View.readCov_unit_zero (S := S256x1) _ hz, View.readCov_unit_zero (S := S256x1056) _ hz, View.readCov_unit_zero (S := S1056x1) _ hz, View.readAt_eq_ld, harg2.read_unread, harg3.read_unread, harg4.read_unread, harg5.read_unread, harg6.read_unread, harg7.read_unread, harg8.read_unread, harg9.read_unread, harg10.read_unread, View.ld_unit_zero (S := S256x1024) hz, View.ld_unit_zero (S := S1056x1024) hz, View.ld_unit_zero (S := S256x1) hz, View.ld_unit_zero (S := S256x1056) hz, View.ld_unit_zero (S := S1056x1) hz]

end Cert.KernelIdeal.Pieces

end
-- ==== Proof.Accum.lean ====
/-
  The five accumulators, point by point. The grid has 32 points: two blocks of 256 query rows, sixteen feature tiles
  each. After a block's first tile an accumulator holds the zero reset plus that tile's contribution; after any later
  tile it holds what the point before left plus the tile's contribution. After a block's last tile the output block
  holds the epilogue of the five accumulators as that same point leaves them.
-/
import proofs.«149832_j18373870092471_2_alg».proof.Proof.Pieces

noncomputable section

open Idealize.ShloMosaic Idealize.ShloMosaic.TcCoe Idealize.SL.Sem

namespace Cert.KernelIdeal.Accum

open Cert.KernelIdeal Cert.KernelIdeal.Gen

variable {F : FTy → Type} [FloatOps F] [Named F]
variable (m : (ℓ : Loc nD τ sig) → Buf (Elt F) ℓ)

set_option maxHeartbeats 4000000 in
/-- The query-by-queue products after a block's first tile: the zero reset plus the tile's contribution. -/
theorem neg_first (c : Dev nD) (t : Fin cfg0.N) (h0 : t.val % 16 = 0) :
    (outsAt0 m c t.val t.isLt).2.1 = k0_pay2 (iblk m c 0 t) (iblk m c 2 t) k0_pay4 := by
  have h1 : ¬t.val % 16 = 15 := by omega
  rw [outsAt0_A m c t h0 h1]
  exact Pieces.first_neg c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h))

set_option maxHeartbeats 4000000 in
/-- The query-by-queue products after a later tile: what the point before left plus the tile's contribution. -/
theorem neg_next (c : Dev nD) (n : ℕ) (hn : n + 1 < cfg0.N) (h0 : ¬(n + 1) % 16 = 0) :
    (outsAt0 m c (n + 1) hn).2.1
      = k0_pay2 (iblk m c 0 ⟨n + 1, hn⟩) (iblk m c 2 ⟨n + 1, hn⟩) ((outsAt0 m c n (Nat.lt_of_succ_lt hn)).2.1) := by
  by_cases h1 : (n + 1) % 16 = 15
  · rw [outsAt0_C m c ⟨n + 1, hn⟩ h0 h1]
    exact Pieces.last_neg c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) ((hcond0_1 ⟨n + 1, hn⟩).mpr h1)
  · rw [outsAt0_B m c ⟨n + 1, hn⟩ h0 h1]
    exact Pieces.mid_neg c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) (fun h => h1 ((hcond0_1 ⟨n + 1, hn⟩).mp h))

/-- The query rows' squared norms after a block's first tile: the zero reset plus the tile's contribution. -/
theorem sqq_first (c : Dev nD) (t : Fin cfg0.N) (h0 : t.val % 16 = 0) :
    (outsAt0 m c t.val t.isLt).2.2.1 = k0_pay10 (iblk m c 0 t) k0_pay5 := by
  have h1 : ¬t.val % 16 = 15 := by omega
  rw [outsAt0_A m c t h0 h1]
  exact Pieces.first_sqq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h))

/-- The query rows' squared norms after a later tile: what the point before left plus the tile's contribution. -/
theorem sqq_next (c : Dev nD) (n : ℕ) (hn : n + 1 < cfg0.N) (h0 : ¬(n + 1) % 16 = 0) :
    (outsAt0 m c (n + 1) hn).2.2.1
      = k0_pay10 (iblk m c 0 ⟨n + 1, hn⟩) ((outsAt0 m c n (Nat.lt_of_succ_lt hn)).2.2.1) := by
  by_cases h1 : (n + 1) % 16 = 15
  · rw [outsAt0_C m c ⟨n + 1, hn⟩ h0 h1]
    exact Pieces.last_sqq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) ((hcond0_1 ⟨n + 1, hn⟩).mpr h1)
  · rw [outsAt0_B m c ⟨n + 1, hn⟩ h0 h1]
    exact Pieces.mid_sqq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) (fun h => h1 ((hcond0_1 ⟨n + 1, hn⟩).mp h))

/-- The key rows' squared norms after a block's first tile: the zero reset plus the tile's contribution. -/
theorem sqk_first (c : Dev nD) (t : Fin cfg0.N) (h0 : t.val % 16 = 0) :
    (outsAt0 m c t.val t.isLt).2.2.2.1 = k0_pay11 (iblk m c 1 t) k0_pay6 := by
  have h1 : ¬t.val % 16 = 15 := by omega
  rw [outsAt0_A m c t h0 h1]
  exact Pieces.first_sqk c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h))

/-- The key rows' squared norms after a later tile: what the point before left plus the tile's contribution. -/
theorem sqk_next (c : Dev nD) (n : ℕ) (hn : n + 1 < cfg0.N) (h0 : ¬(n + 1) % 16 = 0) :
    (outsAt0 m c (n + 1) hn).2.2.2.1
      = k0_pay11 (iblk m c 1 ⟨n + 1, hn⟩) ((outsAt0 m c n (Nat.lt_of_succ_lt hn)).2.2.2.1) := by
  by_cases h1 : (n + 1) % 16 = 15
  · rw [outsAt0_C m c ⟨n + 1, hn⟩ h0 h1]
    exact Pieces.last_sqk c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) ((hcond0_1 ⟨n + 1, hn⟩).mpr h1)
  · rw [outsAt0_B m c ⟨n + 1, hn⟩ h0 h1]
    exact Pieces.mid_sqk c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) (fun h => h1 ((hcond0_1 ⟨n + 1, hn⟩).mp h))

/-- The query-by-key row products after a block's first tile: the zero reset plus the tile's contribution. -/
theorem pos_first (c : Dev nD) (t : Fin cfg0.N) (h0 : t.val % 16 = 0) :
    (outsAt0 m c t.val t.isLt).2.2.2.2.1 = k0_pay12 (iblk m c 0 t) (iblk m c 1 t) k0_pay7 := by
  have h1 : ¬t.val % 16 = 15 := by omega
  rw [outsAt0_A m c t h0 h1]
  exact Pieces.first_pos c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h))

/-- The query-by-key row products after a later tile: what the point before left plus the tile's contribution. -/
theorem pos_next (c : Dev nD) (n : ℕ) (hn : n + 1 < cfg0.N) (h0 : ¬(n + 1) % 16 = 0) :
    (outsAt0 m c (n + 1) hn).2.2.2.2.1
      = k0_pay12 (iblk m c 0 ⟨n + 1, hn⟩) (iblk m c 1 ⟨n + 1, hn⟩) ((outsAt0 m c n (Nat.lt_of_succ_lt hn)).2.2.2.2.1) := by
  by_cases h1 : (n + 1) % 16 = 15
  · rw [outsAt0_C m c ⟨n + 1, hn⟩ h0 h1]
    exact Pieces.last_pos c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) ((hcond0_1 ⟨n + 1, hn⟩).mpr h1)
  · rw [outsAt0_B m c ⟨n + 1, hn⟩ h0 h1]
    exact Pieces.mid_pos c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) (fun h => h1 ((hcond0_1 ⟨n + 1, hn⟩).mp h))

set_option maxHeartbeats 4000000 in
/-- The queue rows' squared norms after a block's first tile: the zero reset plus the tile's contribution. -/
theorem squ_first (c : Dev nD) (t : Fin cfg0.N) (h0 : t.val % 16 = 0) :
    (outsAt0 m c t.val t.isLt).2.2.2.2.2 = k0_pay1 (iblk m c 2 t) k0_pay8 := by
  have h1 : ¬t.val % 16 = 15 := by omega
  rw [outsAt0_A m c t h0 h1]
  exact Pieces.first_squ c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h))

set_option maxHeartbeats 4000000 in
/-- The queue rows' squared norms after a later tile: what the point before left plus the tile's contribution. -/
theorem squ_next (c : Dev nD) (n : ℕ) (hn : n + 1 < cfg0.N) (h0 : ¬(n + 1) % 16 = 0) :
    (outsAt0 m c (n + 1) hn).2.2.2.2.2
      = k0_pay1 (iblk m c 2 ⟨n + 1, hn⟩) ((outsAt0 m c n (Nat.lt_of_succ_lt hn)).2.2.2.2.2) := by
  by_cases h1 : (n + 1) % 16 = 15
  · rw [outsAt0_C m c ⟨n + 1, hn⟩ h0 h1]
    exact Pieces.last_squ c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) ((hcond0_1 ⟨n + 1, hn⟩).mpr h1)
  · rw [outsAt0_B m c ⟨n + 1, hn⟩ h0 h1]
    exact Pieces.mid_squ c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) scM0_0 (Memref.isWhole_whole _) scM0_1 (Memref.isWhole_whole _) scM0_2 (Memref.isWhole_whole _) scM0_3 (Memref.isWhole_whole _) scM0_4 (Memref.isWhole_whole _) (iblk m c 0 (⟨n + 1, hn⟩ : Fin cfg0.N)) (iblk m c 1 (⟨n + 1, hn⟩ : Fin cfg0.N)) (iblk m c 2 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2 (fun h => h0 ((hcond0_0 ⟨n + 1, hn⟩).mp h)) (fun h => h1 ((hcond0_1 ⟨n + 1, hn⟩).mp h))

set_option maxHeartbeats 4000000 in
/-- The output block after a block's last tile: the epilogue of the five accumulators at that point. -/
theorem out_last (c : Dev nD) (t : Fin cfg0.N) (h1 : t.val % 16 = 15) :
    (outsAt0 m c t.val t.isLt).1
      = k0_pay3 (outsAt0 m c t.val t.isLt).2.2.1 (outsAt0 m c t.val t.isLt).2.2.2.1 (outsAt0 m c t.val t.isLt).2.2.2.2.2
          (outsAt0 m c t.val t.isLt).2.2.2.2.1 (outsAt0 m c t.val t.isLt).2.1 := by
  have h0 : ¬t.val % 16 = 0 := by omega
  have hc0 : ¬cond0_0 (grid0.coords t) := fun h => h0 ((hcond0_0 t).mp h)
  have hc1 : cond0_1 (grid0.coords t) := (hcond0_1 t).mpr h1
  rw [outsAt0_C m c t h0 h1]
  dsimp only
  rw [Pieces.last_sqq c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hc0 hc1,
    Pieces.last_sqk c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hc0 hc1,
    Pieces.last_squ c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hc0 hc1,
    Pieces.last_pos c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hc0 hc1,
    Pieces.last_neg c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hc0 hc1]
  exact Pieces.last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 hc0 hc1

end Cert.KernelIdeal.Accum

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.PayIdx.lean ====
/-
  The kernel body's arithmetic read at one entry, over the extended reals.

  A reset stores zeros. An accumulator update adds to the entry of row `r` the tile's contribution to that row: the sum
  over the tile's 1024 features of a product of two entries (a row with itself for a squared norm, a query row with a
  key row, or — the matrix product — a query row with a queue row). The last tile's epilogue turns the five finished
  accumulators into row `r`'s log-softmax: each dot product divided by the two clamped norms and scaled, the shift by
  the row maximum, and the logarithm of the sum of exponentials.
-/
import proofs.«149832_j18373870092471_2_alg».proof.Proof.Gen.KernelIdeal.Skeleton
import proofs.«149832_j18373870092471_2_alg».proof.Proof.LibRowOps
import proofs.«149832_j18373870092471_2_alg».proof.Proof.Spec
import Idealize.ShloMosaic.Lib.ValueIdx
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx Cert.Moco

/-- The scale the epilogue multiplies every cosine by, as the program names it. -/
abbrev scaleK : EReal := Named.named (F := Ideal) κ "inv_t" (φ := .f32) 0x41649249#32

/-! ## Layout operations of the epilogue, read at an index -/

/-- A column `[b, 1]` transposed to the row `[1, b]` reads, at `(0, s)`, the column's entry of row `s`. -/
theorem transpose_col_apply {α : Type} {b : ℕ} (v : (⟨2, ![b, 1]⟩ : Shape).Idx → α)
    (h : (⟨2, ![b, 1]⟩ : Shape).Transposes [1, 0] ⟨2, ![1, b]⟩) (s : Fin b) :
    transpose ⟨2, ![1, b]⟩ [1, 0] v h (ix2 (0 : Fin 1) s) = v (ix2 s (0 : Fin 1)) :=
  transpose_apply [1, 0] v h (ix2 (0 : Fin 1) s) (ix2 s (0 : Fin 1)) fun c => by
    match c with
    | ⟨0, _⟩ => rfl
    | ⟨1, _⟩ => rfl

/-- A row `[1, b]` broadcast to `[a, b]` reads, at `(p, s)`, the row's entry of column `s`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (s : Fin b) :
    broadcastTo ⟨2, ![a, b]⟩ v h (ix2 p s) = v (ix2 (0 : Fin 1) s) := by
  refine broadcastTo_apply v h (ix2 p s) (ix2 (0 : Fin 1) s) fun ax => ?_
  match ax with
  | ⟨0, _⟩ => rfl
  | ⟨1, _⟩ =>
    show s.val = if b = 1 then 0 else s.val
    split
    · have := s.isLt; omega
    · rfl

/-- The pattern of minus infinity is the bottom of the extended reals. -/
theorem ofBits_neg_inf : Ideal.ofBits .f32 0xFF800000#32 = ⊥ := by simp [Ideal.ofBits, Ideal.ieee]

/-- A sum over the second axis kept as a column: entry `(r, 0)` is the sum over row `r` (the sum starts from the pattern of zero). -/
theorem colSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![a, 1]⟩) (r : Fin a) :
    shapeCast ⟨2, ![a, 1]⟩ (multiReduction .add [1] ⟨1, ![a]⟩ src 0x00000000#32 h hφ hacc) hc (ix2 r (0 : Fin 1))
      = ∑ k : Fin b, src (ix2 r k) :=
  (RowOps.shapeCast_a_a1_apply _ hc r 0).trans (RowOps.rowSum_apply src _ h hφ hacc r)

/-- A maximum over the second axis kept as a column: entry `(r, 0)` is the largest entry of row `r` (minus infinity for
    an empty row). -/
theorem colMax_apply {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = 0xFF800000#32)
    (hc : (⟨1, ![a]⟩ : Shape).ShapeCasts ⟨2, ![a, 1]⟩) (r : Fin a) :
    shapeCast ⟨2, ![a, 1]⟩ (multiReduction .maximumf [1] ⟨1, ![a]⟩ src 0xFF800000#32 h hφ hacc) hc (ix2 r (0 : Fin 1))
      = (Finset.univ : Finset (Fin b)).fold max ⊥ (fun k => src (ix2 r k)) :=
  ((RowOps.shapeCast_a_a1_apply _ hc r 0).trans (RowOps.rowMax_apply src _ h hφ hacc r)).trans (by rw [ofBits_neg_inf])

/-! ## The resets -/

theorem zero_neg (i : S256x1056.Idx) : k0_pay4 (F := Ideal) i = 0 := by
  unfold k0_pay4; rw [shapeCast_self]; exact Ideal.ofBits_zero_f32
theorem zero_sqq (i : S256x1.Idx) : k0_pay5 (F := Ideal) i = 0 := by
  unfold k0_pay5; rw [shapeCast_self]; exact Ideal.ofBits_zero_f32
theorem zero_sqk (i : S256x1.Idx) : k0_pay6 (F := Ideal) i = 0 := by
  unfold k0_pay6; rw [shapeCast_self]; exact Ideal.ofBits_zero_f32
theorem zero_pos (i : S256x1.Idx) : k0_pay7 (F := Ideal) i = 0 := by
  unfold k0_pay7; rw [shapeCast_self]; exact Ideal.ofBits_zero_f32
theorem zero_squ (i : S1056x1.Idx) : k0_pay8 (F := Ideal) i = 0 := by
  unfold k0_pay8; rw [shapeCast_self]; exact Ideal.ofBits_zero_f32

/-! ## The updates -/

/-- The query rows' squared norms: row `r` gains the tile's sum of squares of row `r`. -/
theorem upd_sqq (x : Vec Ideal S256x1024 .f32) (acc : Vec Ideal S256x1 .f32) (r : Fin 256) :
    k0_pay10 (F := Ideal) x acc (ix2 r (0 : Fin 1)) = acc (ix2 r (0 : Fin 1)) + ∑ j : Fin 1024, x (ix2 r j) * x (ix2 r j) := by
  unfold k0_pay10
  rw [shapeCast_self]
  show acc (ix2 r (0 : Fin 1)) + _ = acc (ix2 r (0 : Fin 1)) + _
  refine congrArg (acc (ix2 r (0 : Fin 1)) + ·) ?_
  exact colSum_apply _ reduces_S256x1024_S256 _ _ shapeCasts_S256_S256x1 r

/-- The key rows' squared norms, likewise. -/
theorem upd_sqk (x : Vec Ideal S256x1024 .f32) (acc : Vec Ideal S256x1 .f32) (r : Fin 256) :
    k0_pay11 (F := Ideal) x acc (ix2 r (0 : Fin 1)) = acc (ix2 r (0 : Fin 1)) + ∑ j : Fin 1024, x (ix2 r j) * x (ix2 r j) := by
  unfold k0_pay11
  rw [shapeCast_self]
  show acc (ix2 r (0 : Fin 1)) + _ = acc (ix2 r (0 : Fin 1)) + _
  refine congrArg (acc (ix2 r (0 : Fin 1)) + ·) ?_
  exact colSum_apply _ reduces_S256x1024_S256 _ _ shapeCasts_S256_S256x1 r

/-- The query-by-key products of row `r`. -/
theorem upd_pos (x y : Vec Ideal S256x1024 .f32) (acc : Vec Ideal S256x1 .f32) (r : Fin 256) :
    k0_pay12 (F := Ideal) x y acc (ix2 r (0 : Fin 1)) = acc (ix2 r (0 : Fin 1)) + ∑ j : Fin 1024, x (ix2 r j) * y (ix2 r j) := by
  unfold k0_pay12
  rw [shapeCast_self]
  show acc (ix2 r (0 : Fin 1)) + _ = acc (ix2 r (0 : Fin 1)) + _
  refine congrArg (acc (ix2 r (0 : Fin 1)) + ·) ?_
  exact colSum_apply _ reduces_S256x1024_S256 _ _ shapeCasts_S256_S256x1 r

/-- The queue rows' squared norms. -/
theorem upd_squ (u : Vec Ideal S1056x1024 .f32) (acc : Vec Ideal S1056x1 .f32) (s : Fin 1056) :
    k0_pay1 (F := Ideal) u acc (ix2 s (0 : Fin 1)) = acc (ix2 s (0 : Fin 1)) + ∑ j : Fin 1024, u (ix2 s j) * u (ix2 s j) := by
  unfold k0_pay1
  rw [shapeCast_self]
  show acc (ix2 s (0 : Fin 1)) + _ = acc (ix2 s (0 : Fin 1)) + _
  refine congrArg (acc (ix2 s (0 : Fin 1)) + ·) ?_
  exact colSum_apply _ reduces_S1056x1024_S1056 _ _ shapeCasts_S1056_S1056x1 s

/-- The matrix product's operand indices: the left operand is read at (row, feature), the right at (queue row, feature). -/
theorem dot_lhs (i : S256x1056.Idx) (k : Fin 1024) :
    dot_S256x1024_S1056x1024_S256x1056_1_1_0_0_n_n.lhsIdx i ((contrEquiv1 dot_S256x1024_S1056x1024_S256x1056_1_1_0_0_n_n 1024 rfl rfl).symm k) = ix2 (i 0) k := by
  have hk := contrEquiv1_symm_val dot_S256x1024_S1056x1024_S256x1056_1_1_0_0_n_n 1024 rfl rfl k
  funext a
  apply Fin.ext
  match a with
  | ⟨0, _⟩ =>
    show (dot_S256x1024_S1056x1024_S256x1056_1_1_0_0_n_n.lhsIdx i _ 0).val = (i 0).val
    unfold DotDims.lhsIdx
    rw [dif_neg (show ¬(0 : Fin S256x1024.rank) ∈ dot_S256x1024_S1056x1024_S256x1056_1_1_0_0_n_n.lhsBatch by decide), dif_pos (show (0 : Fin S256x1024.rank) ∈ dot_S256x1024_S1056x1024_S256x1056_1_1_0_0_n_n.lhsNonContracting by decide)]
    rfl
  | ⟨1, _⟩ => exact (dot_S256x1024_S1056x1024_S256x1056_1_1_0_0_n_n.lhsIdx_val_of_single rfl i _).trans hk

theorem dot_rhs (i : S256x1056.Idx) (k : Fin 1024) :
    dot_S256x1024_S1056x1024_S256x1056_1_1_0_0_n_n.rhsIdx i ((contrEquiv1 dot_S256x1024_S1056x1024_S256x1056_1_1_0_0_n_n 1024 rfl rfl).symm k) = ix2 (i 1) k := by
  have hk := contrEquiv1_symm_val dot_S256x1024_S1056x1024_S256x1056_1_1_0_0_n_n 1024 rfl rfl k
  funext a
  apply Fin.ext
  match a with
  | ⟨0, _⟩ =>
    show (dot_S256x1024_S1056x1024_S256x1056_1_1_0_0_n_n.rhsIdx i _ 0).val = (i 1).val
    unfold DotDims.rhsIdx
    rw [dif_neg (show ¬(0 : Fin S1056x1024.rank) ∈ dot_S256x1024_S1056x1024_S256x1056_1_1_0_0_n_n.rhsBatch by decide), dif_pos (show (0 : Fin S1056x1024.rank) ∈ dot_S256x1024_S1056x1024_S256x1056_1_1_0_0_n_n.rhsNonContracting by decide)]
    rfl
  | ⟨1, _⟩ => exact (dot_S256x1024_S1056x1024_S256x1056_1_1_0_0_n_n.rhsIdx_val_of_single rfl i _).trans hk

/-- The query-by-queue products: entry `(r, s)` gains the tile's dot product of query row `r` with queue row `s`
    (the narrowing of the operands before the product is the identity on the extended reals). -/
theorem upd_neg (x : Vec Ideal S256x1024 .f32) (u : Vec Ideal S1056x1024 .f32) (acc : Vec Ideal S256x1056 .f32)
    (r : Fin 256) (s : Fin 1056) :
    k0_pay2 (F := Ideal) x u acc (ix2 r s) = acc (ix2 r s) + ∑ j : Fin 1024, x (ix2 r j) * u (ix2 s j) := by
  unfold k0_pay2
  rw [shapeCast_self]
  show acc (ix2 r s) + _ = acc (ix2 r s) + _
  refine congrArg (acc (ix2 r s) + ·) ?_
  refine (Ideal.matmul_constant_zero_apply dot_S256x1024_S1056x1024_S256x1056_1_1_0_0_n_n none _ _ (ix2 r s)).trans ?_
  rw [← Equiv.sum_comp (contrEquiv1 dot_S256x1024_S1056x1024_S256x1056_1_1_0_0_n_n 1024 rfl rfl).symm]
  refine Finset.sum_congr rfl fun k _ => ?_
  rw [dot_lhs, dot_rhs]
  rfl

/-! ## The epilogue -/

theorem sqrt_apply {s : Shape} (a : FVec Ideal s .f32) (i : s.Idx) : sqrt a i = Ideal.sqrt (a i) := rfl
theorem exp_apply {s : Shape} (a : FVec Ideal s .f32) (i : s.Idx) : exp a i = Ideal.exp (a i) := rfl
theorem log_apply {s : Shape} (a : FVec Ideal s .f32) (i : s.Idx) : log a i = Ideal.log (a i) := rfl

/-- The positive logits as the epilogue forms them: the query-by-key products over the product of the two clamped
    norms, times the scale. -/
def posLogit (sqq sqk pos : FVec Ideal S256x1 .f32) : FVec Ideal S256x1 .f32 :=
  mulf (divf pos (mulf (maximumf (sqrt sqq) (broadcast S256x1 (Scalar.ofBits .f32 0x322BCC77#32)))
      (maximumf (sqrt sqk) (broadcast S256x1 (Scalar.ofBits .f32 0x322BCC77#32)))))
    (broadcast S256x1 scaleK)

/-- The negative logits: entry `(r, s)` is the query-by-queue product over the clamped norm of query row `r` times
    that of queue row `s` (the queue norms, kept as a column, are transposed to a row and both are spread over the
    block), times the scale. -/
def negLogits (sqq : FVec Ideal S256x1 .f32) (squ : FVec Ideal S1056x1 .f32) (neg : FVec Ideal S256x1056 .f32) :
    FVec Ideal S256x1056 .f32 :=
  mulf (divf neg (mulf
      (broadcastTo S256x1056 (maximumf (sqrt sqq) (broadcast S256x1 (Scalar.ofBits .f32 0x322BCC77#32))) broadcasts_S256x1_S256x1056)
      (broadcastTo S256x1056 (transpose S1x1056 [1, 0] (maximumf (sqrt squ) (broadcast S1056x1 (Scalar.ofBits .f32 0x322BCC77#32)))
        transposes_S1056x1_p1_0_S1x1056) broadcasts_S1x1056_S256x1056)))
    (broadcast S256x1056 scaleK)

/-- The shift of each row: the larger of its positive logit and the maximum of its negative logits. -/
def rowShift (pv : FVec Ideal S256x1 .f32) (nm : FVec Ideal S256x1056 .f32) : FVec Ideal S256x1 .f32 :=
  maximumf pv (shapeCast S256x1 (multiReduction .maximumf [1] S256 nm 0xFF800000#32 reduces_S256x1056_S256 (.inl rfl) rfl)
    shapeCasts_S256_S256x1)

/-- The log-softmax at the positive logit, row by row. -/
def softmaxTail (pv : FVec Ideal S256x1 .f32) (nm : FVec Ideal S256x1056 .f32) : FVec Ideal S256x1 .f32 :=
  subf (subf pv (rowShift pv nm))
    (log (addf (exp (subf pv (rowShift pv nm)))
      (shapeCast S256x1 (multiReduction .add [1] S256
        (exp (subf nm (broadcastTo S256x1056 (rowShift pv nm) broadcasts_S256x1_S256x1056)))
        0x00000000#32 reduces_S256x1056_S256 (.inl rfl) rfl) shapeCasts_S256_S256x1)))

/-- The epilogue is the log-softmax tail of the two kinds of logits. -/
theorem epilogue_eq (sqq sqk pos : Vec Ideal S256x1 .f32) (squ : Vec Ideal S1056x1 .f32) (neg : Vec Ideal S256x1056 .f32) :
    k0_pay3 (F := Ideal) sqq sqk squ pos neg = softmaxTail (posLogit sqq sqk pos) (negLogits sqq squ neg) := rfl

theorem posLogit_apply (sqq sqk pos : FVec Ideal S256x1 .f32) (r : Fin 256) :
    posLogit sqq sqk pos (ix2 r (0 : Fin 1))
      = Ideal.div (pos (ix2 r (0 : Fin 1)))
          (max (Ideal.sqrt (sqq (ix2 r (0 : Fin 1)))) epsV * max (Ideal.sqrt (sqk (ix2 r (0 : Fin 1)))) epsV) * scaleK := rfl

theorem negLogits_apply (sqq : FVec Ideal S256x1 .f32) (squ : FVec Ideal S1056x1 .f32) (neg : FVec Ideal S256x1056 .f32)
    (r : Fin 256) (s : Fin 1056) :
    negLogits sqq squ neg (ix2 r s)
      = Ideal.div (neg (ix2 r s))
          (max (Ideal.sqrt (sqq (ix2 r (0 : Fin 1)))) epsV * max (Ideal.sqrt (squ (ix2 s (0 : Fin 1)))) epsV) * scaleK := by
  unfold negLogits
  show Ideal.div (neg (ix2 r s)) (broadcastTo S256x1056 _ broadcasts_S256x1_S256x1056 (ix2 r s)
      * broadcastTo S256x1056 _ broadcasts_S1x1056_S256x1056 (ix2 r s)) * scaleK = _
  rw [RowOps.broadcastTo_a1_ab_apply, broadcastTo_1b_ab_apply, transpose_col_apply]
  rfl

theorem rowShift_apply (pv : FVec Ideal S256x1 .f32) (nm : FVec Ideal S256x1056 .f32) (r : Fin 256) :
    rowShift pv nm (ix2 r (0 : Fin 1)) = rowMax (pv (ix2 r (0 : Fin 1))) (fun s => nm (ix2 r s)) :=
  congrArg (max (pv (ix2 r (0 : Fin 1)))) (colMax_apply nm reduces_S256x1056_S256 _ _ shapeCasts_S256_S256x1 r)

theorem softmaxTail_apply (pv : FVec Ideal S256x1 .f32) (nm : FVec Ideal S256x1056 .f32) (r : Fin 256) :
    softmaxTail pv nm (ix2 r (0 : Fin 1)) = rowLoss (pv (ix2 r (0 : Fin 1))) (fun s => nm (ix2 r s)) := by
  unfold softmaxTail rowLoss
  show (pv (ix2 r (0 : Fin 1)) - rowShift pv nm (ix2 r (0 : Fin 1)))
      - Ideal.log (Ideal.exp (pv (ix2 r (0 : Fin 1)) - rowShift pv nm (ix2 r (0 : Fin 1)))
          + shapeCast S256x1 (multiReduction .add [1] S256
              (exp (subf nm (broadcastTo S256x1056 (rowShift pv nm) broadcasts_S256x1_S256x1056)))
              0x00000000#32 reduces_S256x1056_S256 (.inl rfl) rfl) shapeCasts_S256_S256x1 (ix2 r (0 : Fin 1))) = _
  rw [colSum_apply _ reduces_S256x1056_S256 _ _ shapeCasts_S256_S256x1 r, rowShift_apply]
  refine congrArg (fun z => _ - Ideal.log (_ + z)) (Finset.sum_congr rfl fun s _ => ?_)
  show Ideal.exp (nm (ix2 r s) - broadcastTo S256x1056 (rowShift pv nm) broadcasts_S256x1_S256x1056 (ix2 r s)) = _
  rw [RowOps.broadcastTo_a1_ab_apply, rowShift_apply]

/-- Row `r`'s output: the log-softmax, at the positive logit, of the row's logits — each a finished dot product divided
    by the product of the two clamped norms and multiplied by the scale. -/
theorem epilogue (sqq sqk pos : Vec Ideal S256x1 .f32) (squ : Vec Ideal S1056x1 .f32) (neg : Vec Ideal S256x1056 .f32)
    (r : Fin 256) :
    k0_pay3 (F := Ideal) sqq sqk squ pos neg (ix2 r (0 : Fin 1))
      = rowLoss
          (Ideal.div (pos (ix2 r (0 : Fin 1)))
              (max (Ideal.sqrt (sqq (ix2 r (0 : Fin 1)))) epsV * max (Ideal.sqrt (sqk (ix2 r (0 : Fin 1)))) epsV) * scaleK)
          (fun s : Fin 1056 => Ideal.div (neg (ix2 r s))
              (max (Ideal.sqrt (sqq (ix2 r (0 : Fin 1)))) epsV * max (Ideal.sqrt (squ (ix2 s (0 : Fin 1)))) epsV) * scaleK) := by
  rw [epilogue_eq, softmaxTail_apply, posLogit_apply]
  exact congrArg (rowLoss _) (funext fun s => negLogits_apply sqq squ neg r s)

end Cert.KernelIdeal.PayIdx

end
-- ==== Proof.Blocks.lean ====
/-
  What the kernel reads at a grid point. Point `t` of the 32 is tile `t % 16` of row block `t / 16`. The query and key
  windows hold rows `256·(t/16) … 256·(t/16) + 255` and features `1024·(t%16) … 1024·(t%16) + 1023` of their arrays;
  the queue window holds all 1056 queue rows at the same features. Rows and features are written as natural numbers
  (an array row read at a natural number is zero outside the array) so that the running sums over tiles need no bounds.
-/
import proofs.«149832_j18373870092471_2_alg».proof.Proof.Gen.KernelIdeal.Frame
import proofs.«149832_j18373870092471_2_alg».proof.Proof.Spec
import Idealize.ShloMosaic.Lib.ValueIdx
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen Idealize.ShloMosaic.ValueIdx Cert.Moco

/-- Row `a` of a matrix with 16384 columns, as a function of the feature; zero when `a` is not a row. -/
def rowN {R : ℕ} (X : (⟨2, ![R, 16384]⟩ : Shape).Idx → EReal) (a : ℕ) : Fin 16384 → EReal :=
  fun k => if h : a < R then X (ix2 ⟨a, h⟩ k) else 0

theorem rowN_of_lt {R : ℕ} (X : (⟨2, ![R, 16384]⟩ : Shape).Idx → EReal) {a : ℕ} (h : a < R) :
    rowN X a = fun k => X (ix2 ⟨a, h⟩ k) := funext fun k => dif_pos h

/-- The query window's block index at point `t`: (row block, tile). -/
theorem win0_0_index : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
/-- The key window's, the same. -/
theorem win0_1_index : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)
/-- The queue window's: always the whole height, at the tile. -/
theorem win0_2_index : ∀ t : Fin cfg0.N, win0_2.index t (0 : Fin 2) = 0 ∧ win0_2.index t (1 : Fin 2) = t.val % 16 :=
  (by decide +kernel : ∀ t : Fin grid0.N, win0_2.index t (0 : Fin 2) = 0 ∧ win0_2.index t (1 : Fin 2) = t.val % 16)
/-- The output window's: the row block, its one column. -/
theorem win0_3_index : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

variable (m : (ℓ : Loc nD τ sig) → Buf (Elt Ideal) ℓ)

/-- The query block at a point, read at `(r, j)`. -/
theorem qblk_apply (c : Dev nD) (t : Fin cfg0.N) (r : Fin 256) (j : Fin 1024) :
    (iblk m c 0 t : Vec Ideal S256x1024 .f32) (ix2 r j)
      = atNat (rowN (m ((c : Thread nD τ).loc main_arg0)) (256 * (t.val / 16) + r.val)) (1024 * (t.val % 16) + j.val) := by
  have hN : cfg0.N = 32 := N_0
  have ht := t.isLt
  have ha : 256 * (t.val / 16) + r.val < 512 := by have := r.isLt; omega
  have hk : 1024 * (t.val % 16) + j.val < 16384 := by have := j.isLt; omega
  rw [atNat_of_lt _ hk, rowN_of_lt _ ha]
  unfold iblk
  rw [View.read_apply]
  refine (congrFun (V_main_arg0 m c) _).trans ?_
  refine congrArg (m ((c : Thread nD τ).loc main_arg0)) (funext fun a => Fin.ext ?_)
  match a with
  | ⟨0, _⟩ =>
    show win0_0.index t 0 * 256 + 1 * r.val = 256 * (t.val / 16) + r.val
    rw [(win0_0_index t).1]; omega
  | ⟨1, _⟩ =>
    show win0_0.index t 1 * 1024 + 1 * j.val = 1024 * (t.val % 16) + j.val
    rw [(win0_0_index t).2]; omega

/-- The key block at a point, read at `(r, j)`. -/
theorem kblk_apply (c : Dev nD) (t : Fin cfg0.N) (r : Fin 256) (j : Fin 1024) :
    (iblk m c 1 t : Vec Ideal S256x1024 .f32) (ix2 r j)
      = atNat (rowN (m ((c : Thread nD τ).loc main_arg1)) (256 * (t.val / 16) + r.val)) (1024 * (t.val % 16) + j.val) := by
  have hN : cfg0.N = 32 := N_0
  have ht := t.isLt
  have ha : 256 * (t.val / 16) + r.val < 512 := by have := r.isLt; omega
  have hk : 1024 * (t.val % 16) + j.val < 16384 := by have := j.isLt; omega
  rw [atNat_of_lt _ hk, rowN_of_lt _ ha]
  unfold iblk
  rw [View.read_apply]
  refine (congrFun (V_main_arg1 m c) _).trans ?_
  refine congrArg (m ((c : Thread nD τ).loc main_arg1)) (funext fun a => Fin.ext ?_)
  match a with
  | ⟨0, _⟩ =>
    show win0_1.index t 0 * 256 + 1 * r.val = 256 * (t.val / 16) + r.val
    rw [(win0_1_index t).1]; omega
  | ⟨1, _⟩ =>
    show win0_1.index t 1 * 1024 + 1 * j.val = 1024 * (t.val % 16) + j.val
    rw [(win0_1_index t).2]; omega

/-- The queue block at a point, read at `(r, j)`: every queue row, the point's tile of features. -/
theorem ublk_apply (c : Dev nD) (t : Fin cfg0.N) (r : Fin 1056) (j : Fin 1024) :
    (iblk m c 2 t : Vec Ideal S1056x1024 .f32) (ix2 r j)
      = atNat (rowN (m ((c : Thread nD τ).loc main_arg2)) (r.val)) (1024 * (t.val % 16) + j.val) := by
  have hN : cfg0.N = 32 := N_0
  have ht := t.isLt
  have ha : r.val < 1056 := by have := r.isLt; omega
  have hk : 1024 * (t.val % 16) + j.val < 16384 := by have := j.isLt; omega
  rw [atNat_of_lt _ hk, rowN_of_lt _ ha]
  unfold iblk
  rw [View.read_apply]
  refine (congrFun (V_main_arg2 m c) _).trans ?_
  refine congrArg (m ((c : Thread nD τ).loc main_arg2)) (funext fun a => Fin.ext ?_)
  match a with
  | ⟨0, _⟩ =>
    show win0_2.index t 0 * 1056 + 1 * r.val = r.val
    rw [(win0_2_index t).1]; omega
  | ⟨1, _⟩ =>
    show win0_2.index t 1 * 1024 + 1 * j.val = 1024 * (t.val % 16) + j.val
    rw [(win0_2_index t).2]; omega

end Cert.KernelIdeal.Blocks

end
-- ==== Proof.Tiles.lean ====
/-
  One tile's share of a dot product of two rows of 16384 features, and the sixteen shares together.
-/
import proofs.«149832_j18373870092471_2_alg».proof.Proof.Spec

noncomputable section

namespace Cert.Moco

/-- Reading two rows at a natural number and multiplying is reading their product there (both are zero outside). -/
theorem atNat_mul {n : ℕ} (x y : Fin n → EReal) (k : ℕ) : atNat x k * atNat y k = atNat (fun i => x i * y i) k := by
  unfold atNat
  by_cases h : k < n
  · rw [dif_pos h, dif_pos h, dif_pos h]
  · rw [dif_neg h, dif_neg h, dif_neg h, mul_zero]

/-- Tile `d`'s share of the dot product of two rows: the products over features `1024·d … 1024·d + 1023`. -/
def tileDot (x y : Fin 16384 → EReal) (d : ℕ) : EReal := ∑ j : Fin 1024, atNat x (1024 * d + j.val) * atNat y (1024 * d + j.val)

/-- The sixteen tiles' shares make the dot product. -/
theorem sum_tileDot (x y : Fin 16384 → EReal) : ∑ d ∈ Finset.range 16, tileDot x y d = ∑ k, x k * y k := by
  rw [← sum_tiles (fun k => x k * y k)]
  refine Finset.sum_congr rfl fun d _ => Finset.sum_congr rfl fun j _ => ?_
  exact atNat_mul x y _

end Cert.Moco

end
-- ==== Proof.Rows.lean ====
/-
  The finished accumulators and the output block, in closed form. After the last tile of row block `b` the entry of an
  accumulator for block row `r` is a full dot product over the 16384 features of array row `256·b + r` (with itself,
  with the matching key row, or with a queue row; the queue's squared norms do not depend on the block), and the
  output block's row `r` is the log-softmax of that row's logits as the kernel spells them.
-/
import proofs.«149832_j18373870092471_2_alg».proof.Proof.Accum
import proofs.«149832_j18373870092471_2_alg».proof.Proof.PayIdx
import proofs.«149832_j18373870092471_2_alg».proof.Proof.Blocks
import proofs.«149832_j18373870092471_2_alg».proof.Proof.Tiles

noncomputable section

open Idealize.ShloMosaic Idealize.ShloMosaic.TcCoe Idealize.SL.Sem

namespace Cert.KernelIdeal.Rows

open Cert.KernelIdeal Cert.KernelIdeal.Gen Idealize.ShloMosaic.ValueIdx Cert.Moco
open Cert.KernelIdeal.Blocks Cert.KernelIdeal.PayIdx Cert.KernelIdeal.Accum

variable (m : (ℓ : Loc nD τ sig) → Buf (Elt Ideal) ℓ) (c : Dev nD)

/-- A query row's squared norm. -/
theorem sqq_closed (r : Fin 256) (n : ℕ) (h : n < cfg0.N) (hl : n % 16 = 15) :
    (outsAt0 m c n h).2.2.1 (ix2 r (0 : Fin 1)) = ∑ k, rowN (m ((c : Thread nD τ).loc main_arg0)) (256 * (n / 16) + r.val) k * rowN (m ((c : Thread nD τ).loc main_arg0)) (256 * (n / 16) + r.val) k := by
  have hN : cfg0.N = 32 := N_0
  have key := tile_accum_last
    (fun n => if h : n < cfg0.N then (outsAt0 m c n h).2.2.1 (ix2 r (0 : Fin 1)) else 0)
    (fun b d => tileDot (rowN (m ((c : Thread nD τ).loc main_arg0)) (256 * b + r.val)) (rowN (m ((c : Thread nD τ).loc main_arg0)) (256 * b + r.val)) d)
    (fun n hn hz => by
      have h' : n < cfg0.N := by omega
      show (if h : n < cfg0.N then (outsAt0 m c n h).2.2.1 (ix2 r (0 : Fin 1)) else 0) = _
      rw [dif_pos h', sqq_first m c ⟨n, h'⟩ hz, upd_sqq, zero_sqq]
      refine congrArg (0 + ·) (Finset.sum_congr rfl fun j _ => ?_)
      rw [qblk_apply]
      show _ = atNat _ (1024 * 0 + j.val) * atNat _ (1024 * 0 + j.val)
      rw [show (⟨n, h'⟩ : Fin cfg0.N).val = n from rfl, hz])
    (fun n hn hz => by
      have h' : n + 1 < cfg0.N := by omega
      have h'' : n < cfg0.N := by omega
      show (if h : n + 1 < cfg0.N then (outsAt0 m c (n + 1) h).2.2.1 (ix2 r (0 : Fin 1)) else 0)
        = (if h : n < cfg0.N then (outsAt0 m c n h).2.2.1 (ix2 r (0 : Fin 1)) else 0) + _
      rw [dif_pos h', dif_pos h'', sqq_next m c n h' hz, upd_sqq]
      refine congrArg (_ + ·) (Finset.sum_congr rfl fun j _ => ?_)
      rw [qblk_apply])
    n (by omega) hl
  have e : (if h : n < cfg0.N then (outsAt0 m c n h).2.2.1 (ix2 r (0 : Fin 1)) else 0) = (outsAt0 m c n h).2.2.1 (ix2 r (0 : Fin 1)) := dif_pos h
  rw [← e]
  exact key.trans (sum_tileDot _ _)

/-- A key row's squared norm. -/
theorem sqk_closed (r : Fin 256) (n : ℕ) (h : n < cfg0.N) (hl : n % 16 = 15) :
    (outsAt0 m c n h).2.2.2.1 (ix2 r (0 : Fin 1)) = ∑ k, rowN (m ((c : Thread nD τ).loc main_arg1)) (256 * (n / 16) + r.val) k * rowN (m ((c : Thread nD τ).loc main_arg1)) (256 * (n / 16) + r.val) k := by
  have hN : cfg0.N = 32 := N_0
  have key := tile_accum_last
    (fun n => if h : n < cfg0.N then (outsAt0 m c n h).2.2.2.1 (ix2 r (0 : Fin 1)) else 0)
    (fun b d => tileDot (rowN (m ((c : Thread nD τ).loc main_arg1)) (256 * b + r.val)) (rowN (m ((c : Thread nD τ).loc main_arg1)) (256 * b + r.val)) d)
    (fun n hn hz => by
      have h' : n < cfg0.N := by omega
      show (if h : n < cfg0.N then (outsAt0 m c n h).2.2.2.1 (ix2 r (0 : Fin 1)) else 0) = _
      rw [dif_pos h', sqk_first m c ⟨n, h'⟩ hz, upd_sqk, zero_sqk]
      refine congrArg (0 + ·) (Finset.sum_congr rfl fun j _ => ?_)
      rw [kblk_apply]
      show _ = atNat _ (1024 * 0 + j.val) * atNat _ (1024 * 0 + j.val)
      rw [show (⟨n, h'⟩ : Fin cfg0.N).val = n from rfl, hz])
    (fun n hn hz => by
      have h' : n + 1 < cfg0.N := by omega
      have h'' : n < cfg0.N := by omega
      show (if h : n + 1 < cfg0.N then (outsAt0 m c (n + 1) h).2.2.2.1 (ix2 r (0 : Fin 1)) else 0)
        = (if h : n < cfg0.N then (outsAt0 m c n h).2.2.2.1 (ix2 r (0 : Fin 1)) else 0) + _
      rw [dif_pos h', dif_pos h'', sqk_next m c n h' hz, upd_sqk]
      refine congrArg (_ + ·) (Finset.sum_congr rfl fun j _ => ?_)
      rw [kblk_apply])
    n (by omega) hl
  have e : (if h : n < cfg0.N then (outsAt0 m c n h).2.2.2.1 (ix2 r (0 : Fin 1)) else 0) = (outsAt0 m c n h).2.2.2.1 (ix2 r (0 : Fin 1)) := dif_pos h
  rw [← e]
  exact key.trans (sum_tileDot _ _)

/-- A query row's dot product with its key row. -/
theorem pos_closed (r : Fin 256) (n : ℕ) (h : n < cfg0.N) (hl : n % 16 = 15) :
    (outsAt0 m c n h).2.2.2.2.1 (ix2 r (0 : Fin 1)) = ∑ k, rowN (m ((c : Thread nD τ).loc main_arg0)) (256 * (n / 16) + r.val) k * rowN (m ((c : Thread nD τ).loc main_arg1)) (256 * (n / 16) + r.val) k := by
  have hN : cfg0.N = 32 := N_0
  have key := tile_accum_last
    (fun n => if h : n < cfg0.N then (outsAt0 m c n h).2.2.2.2.1 (ix2 r (0 : Fin 1)) else 0)
    (fun b d => tileDot (rowN (m ((c : Thread nD τ).loc main_arg0)) (256 * b + r.val)) (rowN (m ((c : Thread nD τ).loc main_arg1)) (256 * b + r.val)) d)
    (fun n hn hz => by
      have h' : n < cfg0.N := by omega
      show (if h : n < cfg0.N then (outsAt0 m c n h).2.2.2.2.1 (ix2 r (0 : Fin 1)) else 0) = _
      rw [dif_pos h', pos_first m c ⟨n, h'⟩ hz, upd_pos, zero_pos]
      refine congrArg (0 + ·) (Finset.sum_congr rfl fun j _ => ?_)
      rw [qblk_apply, kblk_apply]
      show _ = atNat _ (1024 * 0 + j.val) * atNat _ (1024 * 0 + j.val)
      rw [show (⟨n, h'⟩ : Fin cfg0.N).val = n from rfl, hz])
    (fun n hn hz => by
      have h' : n + 1 < cfg0.N := by omega
      have h'' : n < cfg0.N := by omega
      show (if h : n + 1 < cfg0.N then (outsAt0 m c (n + 1) h).2.2.2.2.1 (ix2 r (0 : Fin 1)) else 0)
        = (if h : n < cfg0.N then (outsAt0 m c n h).2.2.2.2.1 (ix2 r (0 : Fin 1)) else 0) + _
      rw [dif_pos h', dif_pos h'', pos_next m c n h' hz, upd_pos]
      refine congrArg (_ + ·) (Finset.sum_congr rfl fun j _ => ?_)
      rw [qblk_apply, kblk_apply])
    n (by omega) hl
  have e : (if h : n < cfg0.N then (outsAt0 m c n h).2.2.2.2.1 (ix2 r (0 : Fin 1)) else 0) = (outsAt0 m c n h).2.2.2.2.1 (ix2 r (0 : Fin 1)) := dif_pos h
  rw [← e]
  exact key.trans (sum_tileDot _ _)

/-- A queue row's squared norm. -/
theorem squ_closed (s : Fin 1056) (n : ℕ) (h : n < cfg0.N) (hl : n % 16 = 15) :
    (outsAt0 m c n h).2.2.2.2.2 (ix2 s (0 : Fin 1)) = ∑ k, rowN (m ((c : Thread nD τ).loc main_arg2)) s.val k * rowN (m ((c : Thread nD τ).loc main_arg2)) s.val k := by
  have hN : cfg0.N = 32 := N_0
  have key := tile_accum_last
    (fun n => if h : n < cfg0.N then (outsAt0 m c n h).2.2.2.2.2 (ix2 s (0 : Fin 1)) else 0)
    (fun b d => tileDot (rowN (m ((c : Thread nD τ).loc main_arg2)) s.val) (rowN (m ((c : Thread nD τ).loc main_arg2)) s.val) d)
    (fun n hn hz => by
      have h' : n < cfg0.N := by omega
      show (if h : n < cfg0.N then (outsAt0 m c n h).2.2.2.2.2 (ix2 s (0 : Fin 1)) else 0) = _
      rw [dif_pos h', squ_first m c ⟨n, h'⟩ hz, upd_squ, zero_squ]
      refine congrArg (0 + ·) (Finset.sum_congr rfl fun j _ => ?_)
      rw [ublk_apply]
      show _ = atNat _ (1024 * 0 + j.val) * atNat _ (1024 * 0 + j.val)
      rw [show (⟨n, h'⟩ : Fin cfg0.N).val = n from rfl, hz])
    (fun n hn hz => by
      have h' : n + 1 < cfg0.N := by omega
      have h'' : n < cfg0.N := by omega
      show (if h : n + 1 < cfg0.N then (outsAt0 m c (n + 1) h).2.2.2.2.2 (ix2 s (0 : Fin 1)) else 0)
        = (if h : n < cfg0.N then (outsAt0 m c n h).2.2.2.2.2 (ix2 s (0 : Fin 1)) else 0) + _
      rw [dif_pos h', dif_pos h'', squ_next m c n h' hz, upd_squ]
      refine congrArg (_ + ·) (Finset.sum_congr rfl fun j _ => ?_)
      rw [ublk_apply])
    n (by omega) hl
  have e : (if h : n < cfg0.N then (outsAt0 m c n h).2.2.2.2.2 (ix2 s (0 : Fin 1)) else 0) = (outsAt0 m c n h).2.2.2.2.2 (ix2 s (0 : Fin 1)) := dif_pos h
  rw [← e]
  exact key.trans (sum_tileDot _ _)

/-- A query row's dot product with a queue row. -/
theorem neg_closed (r : Fin 256) (s : Fin 1056) (n : ℕ) (h : n < cfg0.N) (hl : n % 16 = 15) :
    (outsAt0 m c n h).2.1 (ix2 r s) = ∑ k, rowN (m ((c : Thread nD τ).loc main_arg0)) (256 * (n / 16) + r.val) k * rowN (m ((c : Thread nD τ).loc main_arg2)) s.val k := by
  have hN : cfg0.N = 32 := N_0
  have key := tile_accum_last
    (fun n => if h : n < cfg0.N then (outsAt0 m c n h).2.1 (ix2 r s) else 0)
    (fun b d => tileDot (rowN (m ((c : Thread nD τ).loc main_arg0)) (256 * b + r.val)) (rowN (m ((c : Thread nD τ).loc main_arg2)) s.val) d)
    (fun n hn hz => by
      have h' : n < cfg0.N := by omega
      show (if h : n < cfg0.N then (outsAt0 m c n h).2.1 (ix2 r s) else 0) = _
      rw [dif_pos h', neg_first m c ⟨n, h'⟩ hz, upd_neg, zero_neg]
      refine congrArg (0 + ·) (Finset.sum_congr rfl fun j _ => ?_)
      rw [qblk_apply, ublk_apply]
      show _ = atNat _ (1024 * 0 + j.val) * atNat _ (1024 * 0 + j.val)
      rw [show (⟨n, h'⟩ : Fin cfg0.N).val = n from rfl, hz])
    (fun n hn hz => by
      have h' : n + 1 < cfg0.N := by omega
      have h'' : n < cfg0.N := by omega
      show (if h : n + 1 < cfg0.N then (outsAt0 m c (n + 1) h).2.1 (ix2 r s) else 0)
        = (if h : n < cfg0.N then (outsAt0 m c n h).2.1 (ix2 r s) else 0) + _
      rw [dif_pos h', dif_pos h'', neg_next m c n h' hz, upd_neg]
      refine congrArg (_ + ·) (Finset.sum_congr rfl fun j _ => ?_)
      rw [qblk_apply, ublk_apply])
    n (by omega) hl
  have e : (if h : n < cfg0.N then (outsAt0 m c n h).2.1 (ix2 r s) else 0) = (outsAt0 m c n h).2.1 (ix2 r s) := dif_pos h
  rw [← e]
  exact key.trans (sum_tileDot _ _)

/-- The output block after the last tile of a row block: row `r` holds the log-softmax of array row `256·(n/16) + r`'s
    logits, each spelt as the kernel does. -/
theorem out_closed (r : Fin 256) (n : ℕ) (h : n < cfg0.N) (hl : n % 16 = 15) :
    (outsAt0 m c n h).1 (ix2 r (0 : Fin 1))
      = rowLoss (cosK scaleK (rowN (m ((c : Thread nD τ).loc main_arg0)) (256 * (n / 16) + r.val)) (rowN (m ((c : Thread nD τ).loc main_arg1)) (256 * (n / 16) + r.val)))
          (fun s : Fin 1056 => cosK scaleK (rowN (m ((c : Thread nD τ).loc main_arg0)) (256 * (n / 16) + r.val)) (rowN (m ((c : Thread nD τ).loc main_arg2)) s.val)) := by
  rw [out_last m c ⟨n, h⟩ hl, epilogue, sqq_closed m c r n h hl, sqk_closed m c r n h hl, pos_closed m c r n h hl]
  refine congrArg (rowLoss _) (funext fun s => ?_)
  rw [neg_closed m c r s n h hl, squ_closed m c s n h hl]
  rfl

end Cert.KernelIdeal.Rows

end
-- ==== Proof.KValue.lean ====
/-
  The kernel's result. The [512, 1] array the kernel leaves holds, in row `a`, the log-softmax at the positive logit of
  row `a`'s logits as the kernel spells them: each row block is written back once, after its last tile, and the two
  blocks tile the array. The program then sums the array, divides by 512 and negates.
-/
import proofs.«149832_j18373870092471_2_alg».proof.Proof.Rows
import proofs.«149832_j18373870092471_2_alg».proof.Proof.LibMaskWords
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo Cert.Moco
open Cert.KernelIdeal.Blocks Cert.KernelIdeal.PayIdx Cert.KernelIdeal.Rows

variable (m : (ℓ : Loc nD τ sig) → Buf (Elt Ideal) ℓ) (ρ : Dev nD → PrngReg)

/-- Array row `a`'s value: the log-softmax, at the positive logit, of its logits as the kernel spells them. -/
def rowVal (c : Dev nD) (a : ℕ) : EReal :=
  rowLoss (cosK scaleK (rowN (m ((c : Thread nD τ).loc main_arg0)) a) (rowN (m ((c : Thread nD τ).loc main_arg1)) a))
    (fun s : Fin 1056 => cosK scaleK (rowN (m ((c : Thread nD τ).loc main_arg0)) a) (rowN (m ((c : Thread nD τ).loc main_arg2)) s.val))

/-- The result array of the kernel: row `a`'s value in its one column. -/
def outArr (c : Dev nD) : S512x1.Idx → Elt Ideal .f32 := fun i => rowVal m c (i 0).val

/-- An entry of the block written back after a row block's last tile is the array's function at the entry's place. -/
theorem block_entry (c : Dev nD) (t : Fin cfg0.N) (hl : t.val % 16 = 15) (j : S256x1.Idx) :
    (outsAt0 m c t.val t.isLt).1 j = outArr m c (((cfg0.win 3).blk t).view.emb j) := by
  obtain ⟨r, u, rfl⟩ : ∃ (r : Fin 256) (u : Fin 1), j = ix2 r u := ⟨j 0, j 1, eq_ix2 j⟩
  obtain rfl : u = 0 := Subsingleton.elim _ _
  rw [out_closed m c r t.val t.isLt hl]
  have he : ((((cfg0.win 3).blk t).view.emb (ix2 r (0 : Fin 1))) 0).val = 256 * (t.val / 16) + r.val := by
    show win0_3.index t 0 * 256 + 1 * r.val = _
    rw [(win0_3_index t).1]; omega
  simp only [outArr, rowVal, he]

/-- What a write-back writes is its block of the array's function. -/
theorem flushed_eq (c : Dev nD) (t : Fin cfg0.N) (hf : (cfg0.win 3).flush t = true) :
    (dats m 0 c).flushed 3 t = ((cfg0.win 3).blk t).view.read (Elt Ideal) (outArr m c) := by
  have hl : t.val % 16 = 15 := (flush0_3 t).mp hf
  show (cfg0.win 3).cut (grid0.coords t) ((dats m 0 c).after 3 t) = _
  rw [after0_3]
  funext j
  exact block_entry m c t hl j

/-- An index of the array is in point `t`'s block iff each coordinate is in the block's range. -/
theorem mem_blk (t : Fin cfg0.N) (i : S512x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0).slice (win0_3.rect t)).set ↔ _
  rw [View.set_slice_whole, Rect.mem_set_unit]
  exact Iff.rfl

/-- The array after the kernel: row `a` is in the block written back after the last tile of row block `a / 256`. -/
theorem final (c : Dev nD) : (dats m 0 c).arrAt 3 cfg0.N = outArr m c :=
  (dats m 0 c).arrAt_eq_of_cover 3 (outArr m c) (fun t hf => flushed_eq m c t hf) fun i => by
    have hi : (i 0).val < 512 := (i 0).isLt
    have hi1 : (i 1).val < 1 := (i 1).isLt
    have hN : cfg0.N = 32 := N_0
    have hlt : 16 * ((i 0).val / 256) + 15 < cfg0.N := by omega
    refine ⟨⟨16 * ((i 0).val / 256) + 15, hlt⟩, (flush0_3 _).mpr (by show (16 * ((i 0).val / 256) + 15) % 16 = 15; omega), ?_⟩
    rw [mem_blk]
    intro a
    match a with
    | ⟨0, _⟩ =>
      show win0_3.index ⟨16 * ((i 0).val / 256) + 15, hlt⟩ 0 * 256 ≤ (i 0).val ∧ (i 0).val < win0_3.index ⟨16 * ((i 0).val / 256) + 15, hlt⟩ 0 * 256 + 256
      rw [(win0_3_index ⟨16 * ((i 0).val / 256) + 15, hlt⟩).1]
      show (16 * ((i 0).val / 256) + 15) / 16 * 256 ≤ (i 0).val ∧ (i 0).val < (16 * ((i 0).val / 256) + 15) / 16 * 256 + 256
      omega
    | ⟨1, _⟩ =>
      show win0_3.index ⟨16 * ((i 0).val / 256) + 15, hlt⟩ 1 * 1 ≤ (i 1).val ∧ (i 1).val < win0_3.index ⟨16 * ((i 0).val / 256) + 15, hlt⟩ 1 * 1 + 1
      rw [(win0_3_index ⟨16 * ((i 0).val / 256) + 15, hlt⟩).2]
      omega

/-- The program's last operations on a [512, 1] column: the sum of all entries, divided by 512, negated — minus the
    mean of the rows' entries. -/
theorem host_tail (x : FVec Ideal S512x1 .f32) (i : S_.Idx) :
    Host.negf (Host.divf (Host.reduceAdd x (constant (F := Ideal) S_ .f32 0x00000000#32) reducesTo_S512x1_S_d0_1 h_S_)
        (constant (F := Ideal) S_ .f32 0x44000000#32)) i
      = meanLoss (fun a : Fin 512 => x (ix2 a (0 : Fin 1))) := by
  have hs : Host.reduceAdd x (constant (F := Ideal) S_ .f32 0x00000000#32) reducesTo_S512x1_S_d0_1 h_S_ i
      = ∑ a : Fin 512, x (ix2 a (0 : Fin 1)) := by
    simp only [Host.reduceAdd, Ideal.hostReduceAdd_def]
    rw [Ideal.hostReduceAdd_total reducesTo_S512x1_S_d0_1 (fun b => b.elim0) x _ i, MaskWords.sum_idx_col]
    show Ideal.ofBits .f32 0x00000000#32 + _ = _
    rw [Ideal.ofBits_zero_f32, zero_add]
  show -(Ideal.div (Host.reduceAdd x (constant (F := Ideal) S_ .f32 0x00000000#32) reducesTo_S512x1_S_d0_1 h_S_ i)
      (Ideal.ofBits .f32 0x44000000#32)) = _
  rw [hs]
  rfl

/-- The kernel's loss: the loss over logits spelt the kernel's way, of the rows of the three argument arrays. -/
def kloss (c : Dev nD) : EReal :=
  lossOf (cosK scaleK) (fun a k => (m ((c : Thread nD τ).loc main_arg0)) (ix2 a k)) (fun a k => (m ((c : Thread nD τ).loc main_arg1)) (ix2 a k)) (fun s k => (m ((c : Thread nD τ).loc main_arg2)) (ix2 s k))

/-- Row `a` of the result array, in terms of the rows of the argument arrays. -/
theorem outArr_col (c : Dev nD) (a : Fin 512) :
    outArr m c (ix2 a (0 : Fin 1))
      = rowLoss (cosK scaleK (fun k => (m ((c : Thread nD τ).loc main_arg0)) (ix2 a k)) (fun k => (m ((c : Thread nD τ).loc main_arg1)) (ix2 a k)))
          (fun s : Fin 1056 => cosK scaleK (fun k => (m ((c : Thread nD τ).loc main_arg0)) (ix2 a k)) (fun k => (m ((c : Thread nD τ).loc main_arg2)) (ix2 s k))) := by
  show rowLoss (cosK scaleK (rowN (m ((c : Thread nD τ).loc main_arg0)) a.val) (rowN (m ((c : Thread nD τ).loc main_arg1)) a.val))
      (fun s : Fin 1056 => cosK scaleK (rowN (m ((c : Thread nD τ).loc main_arg0)) a.val) (rowN (m ((c : Thread nD τ).loc main_arg2)) s.val)) = _
  rw [rowN_of_lt (m ((c : Thread nD τ).loc main_arg0)) a.isLt, rowN_of_lt (m ((c : Thread nD τ).loc main_arg1)) a.isLt]
  refine congrArg (rowLoss _) (funext fun s => ?_)
  rw [rowN_of_lt (m ((c : Thread nD τ).loc main_arg2)) s.isLt]

/-- The program's result after the kernel and its last operations. -/
theorem tail_eq (c : Dev nD) :
    Pipeline.afterTail₀ cfgs (dats m) 0 (V0 m) [hostOps1] c main_v3 = fun _ => kloss m c := by
  unfold Pipeline.afterTail₀
  show StableHlo.after (hostOps1 (F := Ideal)) _ (Proc.devRef .tc main_v3) = _
  after_results
  have hA : Pipeline.withArrays (cfgs 0).spec c (V0 m c) (fun w => (dats m 0 c).arrAt w (cfgs 0).N) (Proc.devRef .tc main_v0)
      = outArr m c := (Pipeline.withArrays_arr spec0 launch0.win.arr_inj c _ _ 3).trans (final m c)
  rw [hA]
  funext i
  rw [host_tail]
  unfold kloss lossOf
  exact congrArg meanLoss (funext fun a => outArr_col m c a)

/-- The run, read: every weakly fair execution terminates with the result at the kernel's loss and the arguments
    unchanged. -/
theorem run : θ_run defs (onTc (τ := τ) (main (F := Ideal))) ⟨m, fun _ => 0, ρ⟩ fun r => ∀ c : Dev nD,
      r.2.mem ((c.tc : Thread nD τ).loc main_v3) = (fun _ => kloss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KValue

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.Algebra.lean ====
/-
  Why the two spellings of a cosine logit agree. The temperature is the real `τ = 9395241 / 2^27` and the kernel's
  scale is exactly `1/τ`, so dividing by `τ` and multiplying by the scale are one operation on every extended real.
  For rows of real numbers the clamped norms are positive reals (the clamp is a positive real), and then, over the reals,
  `Σ (xₖ/a)·(yₖ/b) = (Σ xₖ·yₖ)/(a·b)`: the norms leave the sum by distributivity — the one step that needs every
  entry finite, since on the extended reals distributivity fails at the infinities.
-/
import proofs.«149832_j18373870092471_2_alg».proof.Proof.Spec
import proofs.«149832_j18373870092471_2_alg».proof.Proof.LibRealSums
import proofs.«149832_j18373870092471_2_alg».proof.Proof.LibMaskWords

noncomputable section

namespace Cert.Moco

open Idealize.ShloMosaic

/-- The temperature's pattern denotes `9395241 / 2^27` (the single-precision value nearest 0.07). -/
theorem ofBits_temp : Ideal.ofBits .f32 0x3D8F5C29#32 = ((9395241 / 134217728 : ℝ) : EReal) := by
  simp [Ideal.ofBits, Ideal.ieee, -EReal.coe_mul]; norm_num

/-- The clamp's pattern denotes `11258999 / 2^50` (the single-precision value nearest 1e-8). -/
theorem epsV_eq : epsV = ((11258999 / 1125899906842624 : ℝ) : EReal) := by
  unfold epsV
  simp [Ideal.ofBits, Ideal.ieee, -EReal.coe_mul]; norm_num

/-- The clamped norm of a row of reals is a positive real. -/
theorem nrm_real (x : Fin 16384 → EReal) (hx : ∀ k, ∃ r : ℝ, x k = (r : EReal)) :
    ∃ n : ℝ, 0 < n ∧ nrm x = (n : EReal) := by
  choose xr hxr using hx
  have hs : (∑ k, x k * x k) = ((∑ k, xr k * xr k : ℝ) : EReal) := by
    rw [← MaskWords.sum_coe_mul]; exact Finset.sum_congr rfl fun k _ => by rw [hxr k]
  refine ⟨max (Real.sqrt (∑ k, xr k * xr k)) (11258999 / 1125899906842624), lt_max_of_lt_right (by norm_num), ?_⟩
  unfold nrm
  rw [hs, Ideal.sqrt_coe, if_neg (not_lt.mpr (Finset.sum_nonneg fun k _ => mul_self_nonneg _)), epsV_eq,
    ← Cert.ScaledSum.coe_max]

/-- For rows of reals and positive real divisors, the sum of products of quotients is the quotient of the sum of
    products by the product of the divisors. -/
theorem sum_div_div (x y : Fin 16384 → EReal) (hx : ∀ k, ∃ r : ℝ, x k = (r : EReal)) (hy : ∀ k, ∃ r : ℝ, y k = (r : EReal))
    (a b : ℝ) (ha : 0 < a) (hb : 0 < b) :
    ∑ k, Ideal.div (x k) (a : EReal) * Ideal.div (y k) (b : EReal)
      = Ideal.div (∑ k, x k * y k) ((a : EReal) * (b : EReal)) := by
  choose xr hxr using hx
  choose yr hyr using hy
  have e1 : ∀ k, Ideal.div (x k) (a : EReal) * Ideal.div (y k) (b : EReal) = (((xr k * yr k) * (1 / (a * b)) : ℝ) : EReal) := fun k => by
    rw [hxr k, hyr k, Ideal.div_coe ha.ne', Ideal.div_coe hb.ne', ← EReal.coe_mul, ← EReal.coe_mul, ← EReal.coe_mul]
    congr 1
    field_simp
  have e2 : (∑ k, x k * y k) = ((∑ k, xr k * yr k : ℝ) : EReal) := by
    rw [← MaskWords.sum_coe_mul]; exact Finset.sum_congr rfl fun k _ => by rw [hxr k, hyr k]
  rw [Finset.sum_congr rfl fun k _ => e1 k, Cert.ScaledSum.coe_sum, e2, ← EReal.coe_mul, Ideal.div_coe (mul_pos ha hb).ne',
    ← EReal.coe_mul, Finset.sum_mul]

/-- The kernel's and the reference's cosine logits of two rows of reals are equal. -/
theorem cosK_eq_cosR (x y : Fin 16384 → EReal) (hx : ∀ k, ∃ r : ℝ, x k = (r : EReal)) (hy : ∀ k, ∃ r : ℝ, y k = (r : EReal)) :
    cosK ((134217728 / 9395241 : ℝ) : EReal) x y = cosR (Ideal.ofBits .f32 0x3D8F5C29#32) x y := by
  obtain ⟨a, ha, hna⟩ := nrm_real x hx
  obtain ⟨b, hb, hnb⟩ := nrm_real y hy
  unfold cosK cosR
  rw [hna, hnb, sum_div_div x y hx hy a b ha hb, ofBits_temp, Ideal.div_coe (by norm_num : (9395241 / 134217728 : ℝ) ≠ 0),
    show (1 / (9395241 / 134217728) : ℝ) = 134217728 / 9395241 by norm_num]

/-- So the loss over the kernel's logits is the loss over the reference's, when every entry of the three matrices is real. -/
theorem lossOf_cosK_eq_cosR (Q K : Fin 512 → Fin 16384 → EReal) (U : Fin 1056 → Fin 16384 → EReal)
    (hQ : ∀ a k, ∃ r : ℝ, Q a k = (r : EReal)) (hK : ∀ a k, ∃ r : ℝ, K a k = (r : EReal))
    (hU : ∀ s k, ∃ r : ℝ, U s k = (r : EReal)) :
    lossOf (cosK ((134217728 / 9395241 : ℝ) : EReal)) Q K U = lossOf (cosR (Ideal.ofBits .f32 0x3D8F5C29#32)) Q K U := by
  unfold lossOf
  refine congrArg meanLoss (funext fun a => ?_)
  rw [cosK_eq_cosR (Q a) (K a) (hQ a) (hK a)]
  exact congrArg (rowLoss _) (funext fun j => cosK_eq_cosR (Q a) (U j) (hQ a) (hU j))

end Cert.Moco

end
-- ==== Proof.Finite.lean ====
/-
  The precondition, read: every entry of the three float inputs is a real number. The stated predicate is the
  conjunction of three `all` reductions, each over the comparisons `|x| < +∞` of one array's entries; an extended real
  whose absolute value is below `+∞` is neither infinity.
-/
import proofs.«149832_j18373870092471_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs

variable [Facts]
open Facts

/-- The shape of a scalar has one index. -/
instance : Subsingleton S_.Idx := ⟨fun a b => funext fun d => d.elim0⟩

/-- The pattern of plus infinity is the top of the extended reals. -/
theorem ofBits_pos_inf : Ideal.ofBits .f32 0x7F800000#32 = ⊤ := by simp [Ideal.ofBits, Ideal.ieee]

/-- An extended real whose absolute value compares below `+∞` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [Ideal.cmpf_def, Ideal.hostAbsf_def, Ideal.absf_def, Ideal.ofBits_def, ofBits_pos_inf] at h
  induction x using EReal.rec with
  | bot => exact absurd h (by simp [Ideal.cmp])
  | coe r => exact ⟨r, rfl⟩
  | top => exact absurd h (by simp [Ideal.cmp])

/-- Under the precondition every entry of the three float inputs is a real number. -/
theorem finite_of_pre (x0 x1 : FVec Ideal S512x16384 .f32) (x2 : FVec Ideal S1056x16384 .f32) (x3 : IVec S512 32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  unfold fn at h0
  dsimp only at h0
  obtain ⟨h01, h2⟩ := IntOp.andi_eq_one.1 h0
  obtain ⟨h00, h1⟩ := IntOp.andi_eq_one.1 h01
  refine ⟨fun i => ?_, fun i => ?_, fun i => ?_⟩
  · exact real_of_abs_lt _ (Host.reduce_andi_all _ _ reducesTo_S512x16384_S_d0_1 h_S_ ValueIdx.ix0 h00 i)
  · exact real_of_abs_lt _ (Host.reduce_andi_all _ _ reducesTo_S512x16384_S_d0_1 h_S_ ValueIdx.ix0 h1 i)
  · exact real_of_abs_lt _ (Host.reduce_andi_all _ _ reducesTo_S1056x16384_S_d0_1 h_S_ ValueIdx.ix0 h2 i)

end Cert.Pre_finite_inputs.Finite

end
-- ==== Proof.lean ====
/-
  The certificate of a contrastive loss. From 512 query rows, 512 key rows and a queue of 1056 rows, each of 16384
  features, both programs compute minus the mean over the rows of a log-softmax: row `a`'s logits are the cosine of
  query `a` with key `a` followed by the cosines of query `a` with every queue row, each divided by the temperature;
  the log-softmax is read at the first of them. A row's norm is clamped below by a small constant.

  The kernel walks a grid of two row blocks by sixteen feature tiles, accumulating dot products and squared norms tile
  by tile, and forms the logits after a block's last tile as the finished dot product over the product of the norms,
  times the temperature's reciprocal — a constant the program names, denoting exactly the reciprocal of the temperature's
  binary value. The reference normalises every entry first and divides the summed products by the temperature.

  On the extended reals the two differ by where the norms stand relative to the sum, and moving a factor across a sum
  needs every term finite: that is where the precondition (every input entry a real number) is used, and only there.
  Everything else — sixteen tile sums making one sum, the maximum and the sum over the joined logits splitting into
  the positive logit and the negative ones, the order of additions — is an identity of extended reals.

  The claims: each program runs and leaves its arguments as they were (the two kernels by their generated frames, the
  reference by its run); the named constant denotes what the table says, at both of its sites; and the idealized
  kernel and the idealized reference end with equal results.
-/
import proofs.«149832_j18373870092471_2_alg».proof.Defs
import proofs.«149832_j18373870092471_2_alg».proof.Proof.Gen.Kernel
import proofs.«149832_j18373870092471_2_alg».proof.Proof.Gen.Kernel.Skeleton
import proofs.«149832_j18373870092471_2_alg».proof.Proof.Gen.Kernel.Launch
import proofs.«149832_j18373870092471_2_alg».proof.Proof.Gen.Kernel.Points
import proofs.«149832_j18373870092471_2_alg».proof.Proof.Gen.Kernel.Frame
import proofs.«149832_j18373870092471_2_alg».proof.Proof.Gen.KernelIdeal
import proofs.«149832_j18373870092471_2_alg».proof.Proof.Gen.KernelIdeal.Skeleton
import proofs.«149832_j18373870092471_2_alg».proof.Proof.Gen.KernelIdeal.Launch
import proofs.«149832_j18373870092471_2_alg».proof.Proof.Gen.KernelIdeal.Points
import proofs.«149832_j18373870092471_2_alg».proof.Proof.Gen.KernelIdeal.Frame
import proofs.«149832_j18373870092471_2_alg».proof.Proof.Gen.ReferenceIdeal
import proofs.«149832_j18373870092471_2_alg».proof.Proof.RefRun
import proofs.«149832_j18373870092471_2_alg».proof.Proof.RefRead
import proofs.«149832_j18373870092471_2_alg».proof.Proof.Gen.Pre_finite_inputs
import proofs.«149832_j18373870092471_2_alg».proof.Proof.RefValue
import proofs.«149832_j18373870092471_2_alg».proof.Proof.KValue
import proofs.«149832_j18373870092471_2_alg».proof.Proof.Algebra
import proofs.«149832_j18373870092471_2_alg».proof.Proof.Finite
import Idealize.ShloMosaic.Adequacy
import Idealize.ShloMosaic.Init

noncomputable section

namespace Cert.Proof

open Idealize.ShloMosaic Idealize.ShloMosaic.TcCoe Idealize.SL.Sem

namespace LossClaims

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's scale denotes the reciprocal `2^27 / 9395241` of the temperature's binary value, by the table. -/
theorem scale_eq : Cert.KernelIdeal.PayIdx.scaleK = ((134217728 / 9395241 : ℝ) : EReal) :=
  IdealRules.named_const.ideal_named_scalar _ _ _ _ rfl

/-- The two sites of the named constant: each is the table's value at the ideal instance. -/
theorem preserves : Cert.preserves_Kernel_KernelIdeal :=
  ⟨IdealRules.named_const.statement Cert.KernelIdeal.κ "inv_t" .f32 0x41649249#32 ((134217728 / 9395241 : ℝ) : EReal) rfl,
    IdealRules.named_const.statement Cert.KernelIdeal.κ "inv_t" .f32 0x41649249#32 ((134217728 / 9395241 : ℝ) : EReal) rfl⟩

/-- The kernel ends at the loss over its own spelling of the logits, the reference at the loss over its spelling, of
    arguments that agree; the two losses are equal because every entry is a real number. -/
theorem algebraic : Cert.algebraic_KernelIdeal_ReferenceIdeal := by
  intro m ρ m' ρ' hpre hagree
  refine ⟨fun c => fun _ => Cert.KernelIdeal.KValue.kloss m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hQ, hK, hU⟩ := Cert.Pre_finite_inputs.Finite.finite_of_pre _ _ _ _ (hpre c)
  rw [Cert.ReferenceIdeal.ReadP.val_main_v36_eq]
  funext i
  rw [Cert.ReferenceIdeal.RefValue.result_eq, (hagree c).1, (hagree c).2.1, (hagree c).2.2.1]
  unfold Cert.KernelIdeal.KValue.kloss
  rw [scale_eq]
  exact (Cert.Moco.lossOf_cosK_eq_cosR _ _ _ (fun a k => hQ _) (fun a k => hK _) (fun s k => hU _)).symm

end LossClaims

theorem claim : Cert.Claim :=
  ⟨Cert.Kernel.Gen.facts, Cert.KernelIdeal.Gen.facts, Cert.ReferenceIdeal.Gen.facts, Cert.Pre_finite_inputs.Gen.facts,
    LossClaims.frame_p, LossClaims.frame_pi, LossClaims.frame_ri, LossClaims.preserves, LossClaims.algebraic⟩

end Cert.Proof

end
